-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S4x2048x1024 : Shape := ⟨3, ![4, 2048, 1024]⟩
abbrev S1024x1024 : Shape := ⟨2, ![1024, 1024]⟩
abbrev S1024 : Shape := ⟨1, ![1024]⟩
abbrev S64 : Shape := ⟨1, ![64]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S1024 .f32) (main_arg8 : FVec F S64 .f32) (main_arg9 : FVec F S64 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S1024x1024 .f32) (main_arg5 : FVec F S1024x1024 .f32) (main_arg6 : FVec F S1024x1024 .f32) (main_arg7 : FVec F S1024 .f32) (main_arg8 : FVec F S64 .f32) (main_arg9 : FVec F S64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x2048x1024 .f32) (main_arg1 : FVec F S4x2048x1024 .f32) (main_arg2 : FVec F S4x2048x1024 .f32) (main_arg3 : FVec F S1024x1024 .f32) (main_arg4 : FVec F S1024x1024 .f32) (main_arg5 : FVec F S1024x1024 .f32) (main_arg6 : FVec F S1024x1024 .f32) (main_arg7 : FVec F S1024 .f32) (main_arg8 : FVec F S64 .f32) (main_arg9 : FVec F S64 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S16x2048x1024 : Shape := ⟨3, ![16, 2048, 1024]⟩
abbrev S4x2048x1024 : Shape := ⟨3, ![4, 2048, 1024]⟩
abbrev S1024x1024 : Shape := ⟨2, ![1024, 1024]⟩
abbrev S1024 : Shape := ⟨1, ![1024]⟩
abbrev S64 : Shape := ⟨1, ![64]⟩
abbrev S1x64 : Shape := ⟨2, ![1, 64]⟩
abbrev S1x1024 : Shape := ⟨2, ![1, 1024]⟩
abbrev S1x512x1024 : Shape := ⟨3, ![1, 512, 1024]⟩
abbrev S512x1024 : Shape := ⟨2, ![512, 1024]⟩
abbrev S512x16x64 : Shape := ⟨3, ![512, 16, 64]⟩
abbrev S512x16 : Shape := ⟨2, ![512, 16]⟩
abbrev S512x16x1 : Shape := ⟨3, ![512, 16, 1]⟩
abbrev S1x1x64 : Shape := ⟨3, ![1, 1, 64]⟩
abbrev S16x16x128x1024 : Shape := ⟨4, ![16, 16, 128, 1024]⟩
abbrev S1x16x32x1024 : Shape := ⟨4, ![1, 16, 32, 1024]⟩
abbrev S512x16x16 : Shape := ⟨3, ![512, 16, 16]⟩
abbrev S32x16x16x64 : Shape := ⟨4, ![32, 16, 16, 64]⟩
abbrev S16x32x16x64 : Shape := ⟨4, ![16, 32, 16, 64]⟩
abbrev S16x32x1024 : Shape := ⟨3, ![16, 32, 1024]⟩

abbrev nBuf : Space → Nat
  | .hbm => 17
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S1x1024, .f32⟩
  | .hbm, ⟨13, _⟩ => ⟨S4x2048x1024, .bf16⟩
  | .hbm, ⟨14, _⟩ => ⟨S4x2048x1024, .bf16⟩
  | .hbm, ⟨15, _⟩ => ⟨S16x16x128x1024, .f32⟩
  | .hbm, ⟨16, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .f32⟩
  | .local _ .vmem, ⟨5, _⟩ => ⟨S1024x1024, .f32⟩
  | .local _ .vmem, ⟨6, _⟩ => ⟨S1x64, .f32⟩
  | .local _ .vmem, ⟨7, _⟩ => ⟨S1x64, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | .local _ .vmem, ⟨21, _⟩ => ⟨S1x64, .f32⟩
  | .local _ .vmem, ⟨22, _⟩ => ⟨S1x64, .f32⟩
  | .local _ .vmem, ⟨23, _⟩ => ⟨S1x16x32x1024, .f32⟩
  | .local _ .vmem, ⟨24, _⟩ => ⟨S1x16x32x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  let c0_i32_0 : BitVec 32 := 0#32
  ![v1.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  let c0_i32_0 : BitVec 32 := 0#32
  let c0_i32_1 : BitVec 32 := 0#32
  ![v1.toNat, c0_i32.toNat, arg1.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 2 → Memref sig .tc .vmem S1x16x32x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

class Facts₀ : Prop where
  shapeCasts_S64_S1x64 : S64.ShapeCasts S1x64
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S512x1024_S512x16x64 : S512x1024.ShapeCasts S512x16x64
  reduces_S512x16x64_S512x16 : S512x16x64.Reduces [2] S512x16
  shapeCasts_S512x16_S512x16x1 : S512x16.ShapeCasts S512x16x1
  broadcasts_S512x16x1_S512x16x64 : S512x16x1.Broadcasts S512x16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S512x16x64 : S1x1x64.Broadcasts S512x16x64
  shapeCasts_S512x16x64_S512x1024 : S512x16x64.ShapeCasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  reduces_S512x16x16_S512x16 : S512x16x16.Reduces [2] S512x16
  broadcasts_S512x16x1_S512x16x16 : S512x16x1.Broadcasts S512x16x16
  shapeCasts_S512x16x64_S32x16x16x64 : S512x16x64.ShapeCasts S32x16x16x64
  transposes_S32x16x16x64_p2_0_1_3_S16x32x16x64 : S32x16x16x64.Transposes [2, 0, 1, 3] S16x32x16x64
  shapeCasts_S16x32x16x64_S512x1024 : S16x32x16x64.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S16x32x1024 : S512x1024.ShapeCasts S16x32x1024
  inb_S1x16x32x1024_S1x16x32x1024_0_0_0_0 : ∀ a, (![0, 0, 0, 0] : Fin 4 → Nat) a + S1x16x32x1024.size a ≤ S1x16x32x1024.size a
  h_S1x16x32x1024 : 0 < S1x16x32x1024.numel
  shapeCasts_S1x16x32x1024_S16x32x1024 : S1x16x32x1024.ShapeCasts S16x32x1024
  shapeCasts_S16x32x1024_S1x16x32x1024 : S16x32x1024.ShapeCasts S1x16x32x1024
  shapeCasts_S16x16x128x1024_S16x2048x1024 : S16x16x128x1024.ShapeCasts S16x2048x1024
  dot_S512x1024_S1024x1024_S512x1024_1_1_0_0_n_n_wf : DotDims.WF S512x1024 S1024x1024 S512x1024 [1] [1] [0] [0] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x2048x1024.size a
  hwx0_1 : ∀ i : grid0.Coords, EltTy.bits .f32 = 32 ∨ (Rect.block (s := S4x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x2048x1024.size a
  hwx1_0 : ∀ i : grid1.Coords, EltTy.bits .f32 = 32 ∨ (Rect.block (s := S16x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .f32 = 32 ∨ (Rect.block (s := S1024x1024) S1024x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x16x32x1024.size a ≤ S16x16x128x1024.size a
  hwx1_8 : ∀ i : grid1.Coords, EltTy.bits .f32 = 32 ∨ (Rect.block (s := S16x16x128x1024) S1x16x32x1024.size (cc1_transform_8 i) (hinb1_8 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1x16x32x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S4x2048x1024 : Shape := ⟨3, ![4, 2048, 1024]⟩
abbrev S1024x1024 : Shape := ⟨2, ![1024, 1024]⟩
abbrev S1024 : Shape := ⟨1, ![1024]⟩
abbrev S64 : Shape := ⟨1, ![64]⟩
abbrev S1x4x1x2048x1x1024 : Shape := ⟨6, ![1, 4, 1, 2048, 1, 1024]⟩
abbrev S4x4x1x2048x1x1024 : Shape := ⟨6, ![4, 4, 1, 2048, 1, 1024]⟩
abbrev S16x2048x16x64 : Shape := ⟨4, ![16, 2048, 16, 64]⟩
abbrev S_ : Shape := ⟨0, ![]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2048x16x16 : Shape := ⟨4, ![16, 2048, 16, 16]⟩
abbrev S16x16x2048x64 : Shape := ⟨4, ![16, 16, 2048, 64]⟩
abbrev S1x1x1024 : Shape := ⟨3, ![1, 1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S64, .f32⟩
  | .hbm, ⟨9, _⟩ => ⟨S64, .f32⟩
  | .hbm, ⟨10, _⟩ => ⟨S1x4x1x2048x1x1024, .f32⟩
  | .hbm, ⟨11, _⟩ => ⟨S4x4x1x2048x1x1024, .f32⟩
  | .hbm, ⟨12, _⟩ => ⟨S16x2048x1024, .f32⟩
  | .hbm, ⟨13, _⟩ => ⟨S1x4x1x2048x1x1024, .f32⟩
  | .hbm, ⟨14, _⟩ => ⟨S4x4x1x2048x1x1024, .f32⟩
  | .hbm, ⟨15, _⟩ => ⟨S16x2048x1024, .f32⟩
  | .hbm, ⟨16, _⟩ => ⟨S16x2048x1024, .f32⟩
  | .hbm, ⟨17, _⟩ => ⟨S16x2048x16x64, .f32⟩
  | .hbm, ⟨18, _⟩ => ⟨S16x2048x1024, .f32⟩
  | .hbm, ⟨19, _⟩ => ⟨S16x2048x16x64, .f32⟩
  | .hbm, ⟨20, _⟩ => ⟨S16x2048x1024, .f32⟩
  | .hbm, ⟨21, _⟩ => ⟨S16x2048x16x64, .f32⟩
  | .hbm, ⟨22, _⟩ => ⟨S_, .f32⟩
  | .hbm, ⟨23, _⟩ => ⟨S16x2048x16, .f32⟩
  | .hbm, ⟨24, _⟩ => ⟨S16x2048x16x1, .f32⟩
  | .hbm, ⟨25, _⟩ => ⟨S_, .f32⟩
  | .hbm, ⟨26, _⟩ => ⟨S16x2048x16x1, .f32⟩
  | .hbm, ⟨27, _⟩ => ⟨S16x2048x16x1, .f32⟩
  | .hbm, ⟨28, _⟩ => ⟨S16x2048x16x64, .f32⟩
  | .hbm, ⟨29, _⟩ => ⟨S16x2048x16x64, .f32⟩
  | .hbm, ⟨30, _⟩ => ⟨S16x2048x16x64, .f32⟩
  | .hbm, ⟨31, _⟩ => ⟨S_, .f32⟩
  | .hbm, ⟨32, _⟩ => ⟨S16x2048x16, .f32⟩
  | .hbm, ⟨33, _⟩ => ⟨S16x2048x16x1, .f32⟩
  | .hbm, ⟨34, _⟩ => ⟨S_, .f32⟩
  | .hbm, ⟨35, _⟩ => ⟨S16x2048x16x1, .f32⟩
  | .hbm, ⟨36, _⟩ => ⟨S16x2048x16x1, .f32⟩
  | .hbm, ⟨37, _⟩ => ⟨S16x2048x16x64, .f32⟩
  | .hbm, ⟨38, _⟩ => ⟨S16x2048x16x64, .f32⟩
  | .hbm, ⟨39, _⟩ => ⟨S_, .f32⟩
  | .hbm, ⟨40, _⟩ => ⟨S16x2048x16x1, .f32⟩
  | .hbm, ⟨41, _⟩ => ⟨S16x2048x16x1, .f32⟩
  | .hbm, ⟨42, _⟩ => ⟨S16x2048x16x1, .f32⟩
  | .hbm, ⟨43, _⟩ => ⟨S16x2048x16x64, .f32⟩
  | .hbm, ⟨44, _⟩ => ⟨S16x2048x16x64, .f32⟩
  | .hbm, ⟨45, _⟩ => ⟨S1x1x1x64, .f32⟩
  | .hbm, ⟨46, _⟩ => ⟨S16x2048x16x64, .f32⟩
  | .hbm, ⟨47, _⟩ => ⟨S16x2048x16x64, .f32⟩
  | .hbm, ⟨48, _⟩ => ⟨S1x1x1x64, .f32⟩
  | .hbm, ⟨49, _⟩ => ⟨S16x2048x16x64, .f32⟩
  | .hbm, ⟨50, _⟩ => ⟨S16x2048x16x64, .f32⟩
  | .hbm, ⟨51, _⟩ => ⟨S_, .f32⟩
  | .hbm, ⟨52, _⟩ => ⟨S16x2048x16x64, .f32⟩
  | .hbm, ⟨53, _⟩ => ⟨S16x2048x16x64, .f32⟩
  | .hbm, ⟨54, _⟩ => ⟨S_, .f32⟩
  | .hbm, ⟨55, _⟩ => ⟨S16x2048x16, .f32⟩
  | .hbm, ⟨56, _⟩ => ⟨S16x2048x16x1, .f32⟩
  | .hbm, ⟨57, _⟩ => ⟨S_, .f32⟩
  | .hbm, ⟨58, _⟩ => ⟨S16x2048x16x1, .f32⟩
  | .hbm, ⟨59, _⟩ => ⟨S16x2048x16x1, .f32⟩
  | .hbm, ⟨60, _⟩ => ⟨S16x2048x16x64, .f32⟩
  | .hbm, ⟨61, _⟩ => ⟨S16x2048x16x64, .f32⟩
  | .hbm, ⟨62, _⟩ => ⟨S16x2048x16x64, .f32⟩
  | .hbm, ⟨63, _⟩ => ⟨S_, .f32⟩
  | .hbm, ⟨64, _⟩ => ⟨S16x2048x16, .f32⟩
  | .hbm, ⟨65, _⟩ => ⟨S16x2048x16x1, .f32⟩
  | .hbm, ⟨66, _⟩ => ⟨S_, .f32⟩
  | .hbm, ⟨67, _⟩ => ⟨S16x2048x16x1, .f32⟩
  | .hbm, ⟨68, _⟩ => ⟨S16x2048x16x1, .f32⟩
  | .hbm, ⟨69, _⟩ => ⟨S16x2048x16x64, .f32⟩
  | .hbm, ⟨70, _⟩ => ⟨S16x2048x16x64, .f32⟩
  | .hbm, ⟨71, _⟩ => ⟨S_, .f32⟩
  | .hbm, ⟨72, _⟩ => ⟨S16x2048x16x1, .f32⟩
  | .hbm, ⟨73, _⟩ => ⟨S16x2048x16x1, .f32⟩
  | .hbm, ⟨74, _⟩ => ⟨S16x2048x16x1, .f32⟩
  | .hbm, ⟨75, _⟩ => ⟨S16x2048x16x64, .f32⟩
  | .hbm, ⟨76, _⟩ => ⟨S16x2048x16x64, .f32⟩
  | .hbm, ⟨77, _⟩ => ⟨S1x1x1x64, .f32⟩
  | .hbm, ⟨78, _⟩ => ⟨S16x2048x16x64, .f32⟩
  | .hbm, ⟨79, _⟩ => ⟨S16x2048x16x64, .f32⟩
  | .hbm, ⟨80, _⟩ => ⟨S1x1x1x64, .f32⟩
  | .hbm, ⟨81, _⟩ => ⟨S16x2048x16x64, .f32⟩
  | .hbm, ⟨82, _⟩ => ⟨S16x2048x16x64, .f32⟩
  | .hbm, ⟨83, _⟩ => ⟨S16x2048x16x16, .f32⟩
  | .hbm, ⟨84, _⟩ => ⟨S_, .f32⟩
  | .hbm, ⟨85, _⟩ => ⟨S16x2048x16, .f32⟩
  | .hbm, ⟨86, _⟩ => ⟨S_, .f32⟩
  | .hbm, ⟨87, _⟩ => ⟨S16x2048x16, .f32⟩
  | .hbm, ⟨88, _⟩ => ⟨S16x2048x16, .f32⟩
  | .hbm, ⟨89, _⟩ => ⟨S16x2048x16x1, .f32⟩
  | .hbm, ⟨90, _⟩ => ⟨S16x2048x16x16, .f32⟩
  | .hbm, ⟨91, _⟩ => ⟨S16x2048x16x16, .f32⟩
  | .hbm, ⟨92, _⟩ => ⟨S16x2048x16x16, .f32⟩
  | .hbm, ⟨93, _⟩ => ⟨S_, .f32⟩
  | .hbm, ⟨94, _⟩ => ⟨S16x2048x16, .f32⟩
  | .hbm, ⟨95, _⟩ => ⟨S16x2048x16x1, .f32⟩
  | .hbm, ⟨96, _⟩ => ⟨S16x2048x16x16, .f32⟩
  | .hbm, ⟨97, _⟩ => ⟨S16x2048x16x16, .f32⟩
  | .hbm, ⟨98, _⟩ => ⟨S16x2048x16x64, .f32⟩
  | .hbm, ⟨99, _⟩ => ⟨S16x16x2048x64, .f32⟩
  | .hbm, ⟨100, _⟩ => ⟨S16x2048x1024, .f32⟩
  | .hbm, ⟨101, _⟩ => ⟨S16x2048x1024, .f32⟩
  | .hbm, ⟨102, _⟩ => ⟨S1x1x1024, .f32⟩
  | .hbm, ⟨103, _⟩ => ⟨S16x2048x1024, .f32⟩
  | .hbm, ⟨104, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]

class Facts₀ : Prop where
  shapeCasts_S4x2048x1024_S1x4x1x2048x1x1024 : S4x2048x1024.ShapeCasts S1x4x1x2048x1x1024
  bcast_S1x4x1x2048x1x1024_S4x4x1x2048x1x1024_0_1_2_3_4_5 : S1x4x1x2048x1x1024.BroadcastsInDim S4x4x1x2048x1x1024 (![0, 1, 2, 3, 4, 5] : Fin 6 → Fin S4x4x1x2048x1x1024.rank)
  shapeCasts_S4x4x1x2048x1x1024_S16x2048x1024 : S4x4x1x2048x1x1024.ShapeCasts S16x2048x1024
  shapeCasts_S16x2048x1024_S16x2048x16x64 : S16x2048x1024.ShapeCasts S16x2048x16x64
  reducesTo_S16x2048x16x64_S16x2048x16_d3 : S16x2048x16x64.ReducesTo [3] S16x2048x16
  h_S_ : 0 < S_.numel
  bcast_S16x2048x16_S16x2048x16x1_0_1_2 : S16x2048x16.BroadcastsInDim S16x2048x16x1 (![0, 1, 2] : Fin 3 → Fin S16x2048x16x1.rank)
  bcast_S_S16x2048x16x1 : S_.BroadcastsInDim S16x2048x16x1 (![] : Fin 0 → Fin S16x2048x16x1.rank)
  bcast_S16x2048x16x1_S16x2048x16x64_0_1_2_3 : S16x2048x16x1.BroadcastsInDim S16x2048x16x64 (![0, 1, 2, 3] : Fin 4 → Fin S16x2048x16x64.rank)
  bcast_S64_S1x1x1x64_3 : S64.BroadcastsInDim S1x1x1x64 (![3] : Fin 1 → Fin S1x1x1x64.rank)
  bcast_S1x1x1x64_S16x2048x16x64_0_1_2_3 : S1x1x1x64.BroadcastsInDim S16x2048x16x64 (![0, 1, 2, 3] : Fin 4 → Fin S16x2048x16x64.rank)
  bcast_S_S16x2048x16x64 : S_.BroadcastsInDim S16x2048x16x64 (![] : Fin 0 → Fin S16x2048x16x64.rank)
  reducesTo_S16x2048x16x16_S16x2048x16_d3 : S16x2048x16x16.ReducesTo [3] S16x2048x16
  bcast_S_S16x2048x16 : S_.BroadcastsInDim S16x2048x16 (![] : Fin 0 → Fin S16x2048x16.rank)
  bcast_S16x2048x16x1_S16x2048x16x16_0_1_2_3 : S16x2048x16x1.BroadcastsInDim S16x2048x16x16 (![0, 1, 2, 3] : Fin 4 → Fin S16x2048x16x16.rank)
  transposes_S16x2048x16x64_S16x16x2048x64_0_2_1_3 : S16x2048x16x64.Transposes [0, 2, 1, 3] S16x16x2048x64
  shapeCasts_S16x16x2048x64_S16x2048x1024 : S16x16x2048x64.ShapeCasts S16x2048x1024
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x1024_S1024x1024_S16x2048x1024_2_1_01_0_n_n_wf : DotDims.WF S16x2048x1024 S1024x1024 S16x2048x1024 [2] [1] [0, 1] [0] [] []
  dot_S16x2048x16x64_S16x2048x16x64_S16x2048x16x16_3_3_2_2_01_01_wf : DotDims.WF S16x2048x16x64 S16x2048x16x64 S16x2048x16x16 [3] [3] [2] [2] [0, 1] [0, 1]
  dot_S16x2048x16x16_S16x2048x16x64_S16x2048x16x64_3_2_2_3_01_01_wf : DotDims.WF S16x2048x16x16 S16x2048x16x64 S16x2048x16x64 [3] [2] [2] [3] [0, 1] [0, 1]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x16x64_S16x2048x16x64_S16x2048x16x16_3_3_2_2_01_01 : DotDims S16x2048x16x64 S16x2048x16x64 S16x2048x16x16 where
  lhsContracting := [3]
  rhsContracting := [3]
  lhsNonContracting := [2]
  rhsNonContracting := [2]
  lhsBatch := [0, 1]
  rhsBatch := [0, 1]
  wf := dot_S16x2048x16x64_S16x2048x16x64_S16x2048x16x16_3_3_2_2_01_01_wf
def dot_S16x2048x16x16_S16x2048x16x64_S16x2048x16x64_3_2_2_3_01_01 : DotDims S16x2048x16x16 S16x2048x16x64 S16x2048x16x64 where
  lhsContracting := [3]
  rhsContracting := [2]
  lhsNonContracting := [2]
  rhsNonContracting := [3]
  lhsBatch := [0, 1]
  rhsBatch := [0, 1]
  wf := dot_S16x2048x16x16_S16x2048x16x64_S16x2048x16x64_3_2_2_3_01_01_wf

class Facts : Prop extends Facts₀ where

variable [Facts]
-- ==== Proof.Spec.lean ====
/-
  What both programs compute, stated once over the extended reals with explicit coordinates.

  The inputs are q : [16, 2048, 1024], k, v : [4, 2048, 1024], four weight matrices stored [out, in],
  an output bias of length 1024 and the LayerNorm scale and shift of length 64. A row of 1024 numbers is
  16 heads of 64 lanes: column `c` is head `c / 64`, lane `c % 64`.

  * a projection is the row times the transposed weight: `proj x W b n c = ∑ k, x[b, n, k] * W[c, k]`;
  * each head of a projected q or k row is normalized over its 64 lanes (mean and biased variance, the
    sums divided by 64), scaled and shifted; the q heads are then multiplied by 1/8;
  * for one token, head `h` of q is scored against every head `g` of k (a sum over the 64 lanes), the 16
    scores are turned into weights by a softmax (subtract the row maximum, exponentiate, divide by the
    sum), and the weights mix the 16 heads of v: `attnRow`;
  * query batch `b` uses key / value batch `b % 4`;
  * the attention result [b, n, h, d] is re-laid as [b, h, n, d] and read as rows of 1024: row `n'`
    belongs to head `n' / 128`, and its column `c'` is lane `c' % 64` of token `(n' % 128) * 16 + c' / 64`;
  * that row goes through the output projection and the bias is added.
-/
import Idealize.ShloMosaic.PureOps.Ideal
import Idealize.ShloMosaic.Lib.ValueIdx
import Mathlib.Data.Finset.Fold

noncomputable section

namespace Cert.Spec

open Idealize.ShloMosaic Idealize.ShloMosaic.ValueIdx

/-- Arrays of extended reals over literal shapes. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal
abbrev A4 (a b c d : Nat) := (⟨4, ![a, b, c, d]⟩ : Shape).Idx → EReal

/-! ## The four literals (never evaluated: the same words stand on both sides) -/

/-- 64, the number of lanes of a head. -/
def w64 : EReal := Ideal.ofBits .f32 0x42800000#32
/-- The LayerNorm epsilon. -/
def wEps : EReal := Ideal.ofBits .f32 0x3727C5AC#32
/-- 1/8, the scale of the normalized q. -/
def wScale : EReal := Ideal.ofBits .f32 0x3E000000#32
/-- minus infinity, where the row maximum starts. -/
def wNegInf : EReal := Ideal.ofBits .f32 0xFF800000#32

/-! ## Coordinates -/

/-- Column of head `h`, lane `d`. -/
def col (h : Fin 16) (d : Fin 64) : Fin 1024 := ⟨h.val * 64 + d.val, by have := h.isLt; have := d.isLt; omega⟩
/-- Head of a column. -/
def headOf (c : Fin 1024) : Fin 16 := ⟨c.val / 64, by have := c.isLt; omega⟩
/-- Lane of a column. -/
def laneOf (c : Fin 1024) : Fin 64 := ⟨c.val % 64, by omega⟩
/-- Key / value batch of a query batch. -/
def batchOf (b : Fin 16) : Fin 4 := ⟨b.val % 4, by omega⟩
/-- Head that output row `n'` belongs to. -/
def rowHead (n : Fin 2048) : Fin 16 := ⟨n.val / 128, by have := n.isLt; omega⟩
/-- Position of output row `n'` among its head's 128 rows. -/
def rowSlot (n : Fin 2048) : Fin 128 := ⟨n.val % 128, by omega⟩
/-- Token that column `c'` of the `a`-th row of a head reads. -/
def tokOf (a : Fin 128) (c : Fin 1024) : Fin 2048 := ⟨a.val * 16 + c.val / 64, by have := a.isLt; have := c.isLt; omega⟩

/-! ## Projection and LayerNorm -/

/-- A row against row `c` of a weight stored [out, in]. -/
def proj {B : Nat} (x : A3 B 2048 1024) (W : A2 1024 1024) (b : Fin B) (n : Fin 2048) (c : Fin 1024) : EReal :=
  ∑ k : Fin 1024, x (ix3 b n k) * W (ix2 c k)

/-- Mean of a head's 64 lanes. -/
def mean (p : Fin 64 → EReal) : EReal := Ideal.div (∑ d : Fin 64, p d) w64
/-- Biased variance of a head's 64 lanes. -/
def var (p : Fin 64 → EReal) : EReal := Ideal.div (∑ d : Fin 64, (p d - mean p) * (p d - mean p)) w64
/-- LayerNorm of a head, with scale `g` and shift `be`. -/
def ln (p : Fin 64 → EReal) (g be : Fin 64 → EReal) (d : Fin 64) : EReal :=
  (p d - mean p) * Ideal.rsqrt (var p + wEps) * g d + be d

/-- The normalized, scaled query heads of token `n` of batch `b`. -/
def qn (q : A3 16 2048 1024) (Wq : A2 1024 1024) (g be : Fin 64 → EReal) (b : Fin 16) (n : Fin 2048) (h : Fin 16) (d : Fin 64) : EReal :=
  ln (fun e => proj q Wq b n (col h e)) g be d * wScale

/-- The projected, normalized keys as an array [4, 2048, 1024]. -/
def kpArr (k : A3 4 2048 1024) (Wk : A2 1024 1024) (g be : Fin 64 → EReal) : A3 4 2048 1024 :=
  fun i => ln (fun e => proj k Wk (i 0) (i 1) (col (headOf (i 2)) e)) g be (laneOf (i 2))

/-- The projected values as an array [4, 2048, 1024]. -/
def vpArr (v : A3 4 2048 1024) (Wv : A2 1024 1024) : A3 4 2048 1024 :=
  fun i => proj v Wv (i 0) (i 1) (i 2)

/-! ## One token's attention across heads -/

/-- Score of query head `h` against key head `g`. -/
def score (qr kr : Fin 16 → Fin 64 → EReal) (h g : Fin 16) : EReal := ∑ d : Fin 64, qr h d * kr g d
/-- Maximum of 16 scores, from minus infinity. -/
def rowMax (s : Fin 16 → EReal) : EReal := (Finset.univ : Finset (Fin 16)).fold max wNegInf s
/-- Exponential of a score less the row maximum. -/
def pexp (s : Fin 16 → EReal) (g : Fin 16) : EReal := Ideal.exp (s g - rowMax s)
/-- Softmax weight. -/
def softmax (s : Fin 16 → EReal) (g : Fin 16) : EReal := Ideal.div (pexp s g) (∑ g' : Fin 16, pexp s g')
/-- Head `h`, lane `d` of the mixed values. -/
def attnRow (qr kr vr : Fin 16 → Fin 64 → EReal) (h : Fin 16) (d : Fin 64) : EReal :=
  ∑ g : Fin 16, softmax (score qr kr h) g * vr g d

/-- The attention result of token `n` of query batch `b`, from projected key and value arrays. -/
def xTok (q : A3 16 2048 1024) (kp vp : A3 4 2048 1024) (Wq : A2 1024 1024) (g be : Fin 64 → EReal)
    (b : Fin 16) (n : Fin 2048) (h : Fin 16) (d : Fin 64) : EReal :=
  attnRow (fun h' d' => qn q Wq g be b n h' d')
    (fun g' d' => kp (ix3 (batchOf b) n (col g' d'))) (fun g' d' => vp (ix3 (batchOf b) n (col g' d'))) h d

/-- The output as [16, 16, 128, 1024]: batch, head, row within the head, output column. -/
def out4 (q : A3 16 2048 1024) (kp vp : A3 4 2048 1024) (Wq Wo : A2 1024 1024) (bo : Fin 1024 → EReal)
    (g be : Fin 64 → EReal) : A4 16 16 128 1024 :=
  fun i => (∑ c' : Fin 1024, xTok q kp vp Wq g be (i 0) (tokOf (i 2) c') (i 1) (laneOf c') * Wo (ix2 (i 3) c')) + bo (i 3)

/-- The whole result [16, 2048, 1024] as a function of the ten inputs. -/
def G (q : A3 16 2048 1024) (k v : A3 4 2048 1024) (Wq Wk Wv Wo : A2 1024 1024) (bo : A1 1024) (gamma beta : A1 64) :
    A3 16 2048 1024 :=
  fun i => out4 q (kpArr k Wk (fun d => gamma (ix1 d)) (fun d => beta (ix1 d))) (vpArr v Wv) Wq Wo
    (fun c => bo (ix1 c)) (fun d => gamma (ix1 d)) (fun d => beta (ix1 d))
    (ix4 (i 0) (rowHead (i 1)) (rowSlot (i 1)) (i 2))

/-- The running maximum started at `b` is at least `b`: taking the maximum with `b` again changes nothing. -/
theorem max_fold_self {ι : Type} (s : Finset ι) (b : EReal) (f : ι → EReal) : max b (s.fold max b f) = s.fold max b f :=
  max_eq_right ((Finset.le_fold_max b).2 (Or.inl le_rfl))

end Cert.Spec

end
-- ==== Proof.KernelRun.lean ====
/-
  The idealized kernel's run with its result named.

  @main is four segments: three host reshapes (scale, shift and bias as one-row matrices), the key / value
  projection region, the attention region, and one host reshape of the attention region's output. The buffer
  contents at each boundary are a fold from the launch memory: `W1` after the first reshapes, `W2` after the first
  region (its two output arrays at what its write-backs leave), `W3` after the second, `W4` after the last reshape.
  Every weakly fair execution ends with every unscoped buffer at `W4`; read at the result buffer this names the
  result, and read at an argument it is the launch contents. This is the several-region launch theorem applied to
  the generated segments, with the final state read at the result buffer as well as at the arguments.
-/
import proofs.«122151_j90907277787786_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault, the result
    buffer holds the last boundary's contents `W4` there, and every argument array is as launched. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.KernelValue.lean ====
/-
  The idealized kernel's result buffer, read back through the boundaries of its run, is the specification `G` of
  the ten launch arrays.

  The last host operation is a reshape of the attention region's output [16, 16, 128, 1024] to [16, 2048, 1024]:
  entry (b, n', c) reads entry (b, n' / 128, n' % 128, c). The attention region's output array is `out4` of the
  arrays it finds on entry: q, Wq, Wo as launched (no operation before it writes them), the projected keys and values
  as the first region's write-backs left them — `kpArr` and `vpArr` of k, v, Wk, Wv as launched —, and the scale, the
  shift and the bias as one-row matrices, whose entry (0, e) is entry e of the launched vector. The three facts about
  the regions' output arrays are taken as hypotheses here and supplied where the claim is assembled.
-/
import proofs.«122151_j90907277787786_2_alg».proof.Proof.Gen.KernelIdeal.Frame
import proofs.«122151_j90907277787786_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo

variable (m : (ℓ : Loc nD τ sig) → Buf (Elt Ideal) ℓ) (ρ : Dev nD → PrngReg)

/-- The result buffer after the last reshape is the attention region's output array, re-laid. -/
theorem W4_v5 (c : Dev nD) : W4 m ρ c (Proc.devRef .tc main_v5)
    = shapeCast S16x2048x1024 (W3 m ρ c (Proc.devRef .tc main_v4)) shapeCasts_S16x16x128x1024_S16x2048x1024 := by
  show StableHlo.after hostOps2 (W3 m ρ c) (Proc.devRef .tc main_v5) = _
  after_results
  rfl

/-- At the first region's entry the one-row scale is the launched scale vector, re-laid. -/
theorem W1_v0 (c : Dev nD) : W1 m ρ c (Proc.devRef .tc main_v0)
    = shapeCast S1x64 (m ((c : Thread nD τ).loc main_arg8)) shapeCasts_S64_S1x64 := by
  show StableHlo.after hostOps0 (W0 m ρ c) (Proc.devRef .tc main_v0) = _
  after_results
  rfl
/-- Likewise the one-row shift. -/
theorem W1_v1 (c : Dev nD) : W1 m ρ c (Proc.devRef .tc main_v1)
    = shapeCast S1x64 (m ((c : Thread nD τ).loc main_arg9)) shapeCasts_S64_S1x64 := by
  show StableHlo.after hostOps0 (W0 m ρ c) (Proc.devRef .tc main_v1) = _
  after_results
  rfl
/-- Likewise the one-row output bias. -/
theorem W1_v2 (c : Dev nD) : W1 m ρ c (Proc.devRef .tc main_v2)
    = shapeCast S1x1024 (m ((c : Thread nD τ).loc main_arg7)) shapeCasts_S1024_S1x1024 := by
  show StableHlo.after hostOps0 (W0 m ρ c) (Proc.devRef .tc main_v2) = _
  after_results
  rfl

/-- A buffer that none of the three leading reshapes writes holds its launch contents at the first region's entry. -/
theorem W1_untouched (c : Dev nD) (b : Ref sig .tc) (h0 : b ≠ main_v0) (h1 : b ≠ main_v1) (h2 : b ≠ main_v2) :
    W1 m ρ c (Proc.devRef .tc b) = m ((c : Thread nD τ).loc b) := by
  refine (StableHlo.after_of_forall_not_mem (b := Proc.devRef .tc b) _ _ (List.forall_iff_forall_mem.mp ?_)).trans rfl
  simp only [hostOps0, List.Forall, StableHlo.reshape_writes, Finset.mem_singleton]
  exact ⟨StableHlo.devRef_ne_of_ne h0, StableHlo.devRef_ne_of_ne h1, StableHlo.devRef_ne_of_ne h2⟩

/-- The first region only reads the one-row scale: at its exit the array is as at its entry. -/
theorem W2_v0 (c : Dev nD) : W2 m ρ c (Proc.devRef .tc main_v0) = W1 m ρ c (Proc.devRef .tc main_v0) :=
  (W2_arr m ρ c 4).trans (((dat0 (V1 m ρ) c).arrAt_in 4 rfl _).trans (A_eq0 (V1 m ρ) c 4))
/-- Likewise the one-row shift. -/
theorem W2_v1 (c : Dev nD) : W2 m ρ c (Proc.devRef .tc main_v1) = W1 m ρ c (Proc.devRef .tc main_v1) :=
  (W2_arr m ρ c 5).trans (((dat0 (V1 m ρ) c).arrAt_in 5 rfl _).trans (A_eq0 (V1 m ρ) c 5))

/-- Entry (0, e) of a vector of 64 re-laid as one row is entry e. -/
theorem gam (x : Spec.A1 64) (e : Fin 64) : shapeCast S1x64 x shapeCasts_S64_S1x64 (ix2 0 e) = x (ix1 e) :=
  shapeCast_a_1a_apply x _ 0 e

/-- Entry (0, e) of a vector of 1024 re-laid as one row is entry e. -/
theorem bia (x : Spec.A1 1024) (e : Fin 1024) : shapeCast S1x1024 x shapeCasts_S1024_S1x1024 (ix2 0 e) = x (ix1 e) :=
  shapeCast_a_1a_apply x _ 0 e

/-- The result buffer is `G` of the launch arrays, given each region's output array as a function of the arrays the
    region finds on entry: walk the boundaries back from the last reshape to the launch. -/
theorem result_of_arrays
    (hkp : ∀ (V : (c : Dev nD) → (b : Ref sig .tc) → Buf (Elt Ideal) ((c : Thread nD τ).loc b)) (c : Dev nD),
      (dat0 (F := Ideal) V c).arrAt 6 cfg0.N
        = Spec.kpArr (V c main_arg1) (V c main_arg4) (fun e => V c main_v0 (ix2 0 e)) (fun e => V c main_v1 (ix2 0 e)))
    (hvp : ∀ (V : (c : Dev nD) → (b : Ref sig .tc) → Buf (Elt Ideal) ((c : Thread nD τ).loc b)) (c : Dev nD),
      (dat0 (F := Ideal) V c).arrAt 7 cfg0.N = Spec.vpArr (V c main_arg2) (V c main_arg5))
    (hout : ∀ (V : (c : Dev nD) → (b : Ref sig .tc) → Buf (Elt Ideal) ((c : Thread nD τ).loc b)) (c : Dev nD),
      (dat1 (F := Ideal) V c).arrAt 8 cfg1.N
        = Spec.out4 (V c main_arg0) (V c main_v3_0) (V c main_v3_1) (V c main_arg3) (V c main_arg6)
            (fun c' => V c main_v2 (ix2 0 c')) (fun e => V c main_v0 (ix2 0 e)) (fun e => V c main_v1 (ix2 0 e)))
    (c : Dev nD) :
    W4 m ρ c (Proc.devRef .tc main_v5)
      = Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  rw [W4_v5]
  funext i
  refine (shapeCast_apply _ _ i (ix4 (i 0) (Spec.rowHead (i 1)) (Spec.rowSlot (i 1)) (i 2)) ?_).trans ?_
  · rw [Shape.rowMajor_val_four, Shape.rowMajor_val_three]
    show (((i 0).val * 16 + (i 1).val / 128) * 128 + (i 1).val % 128) * 1024 + (i 2).val = ((i 0).val * 2048 + (i 1).val) * 1024 + (i 2).val
    omega
  · have h3 : W3 m ρ c (Proc.devRef .tc main_v4) = (dat1 (V2 m ρ) c).arrAt 8 cfg1.N := W3_arr m ρ c 8
    have hk : V2 m ρ c main_v3_0 = (dat0 (V1 m ρ) c).arrAt 6 cfg0.N := W2_arr m ρ c 6
    have hv : V2 m ρ c main_v3_1 = (dat0 (V1 m ρ) c).arrAt 7 cfg0.N := W2_arr m ρ c 7
    have e0 : V2 m ρ c main_arg0 = m ((c : Thread nD τ).loc main_arg0) :=
      (W2_of_ne m ρ c main_arg0 (by decide)).trans (W1_untouched m ρ c main_arg0 (by decide) (by decide) (by decide))
    have e3 : V2 m ρ c main_arg3 = m ((c : Thread nD τ).loc main_arg3) :=
      (W2_of_ne m ρ c main_arg3 (by decide)).trans (W1_untouched m ρ c main_arg3 (by decide) (by decide) (by decide))
    have e6 : V2 m ρ c main_arg6 = m ((c : Thread nD τ).loc main_arg6) :=
      (W2_of_ne m ρ c main_arg6 (by decide)).trans (W1_untouched m ρ c main_arg6 (by decide) (by decide) (by decide))
    have e1 : V1 m ρ c main_arg1 = m ((c : Thread nD τ).loc main_arg1) := W1_untouched m ρ c main_arg1 (by decide) (by decide) (by decide)
    have e2 : V1 m ρ c main_arg2 = m ((c : Thread nD τ).loc main_arg2) := W1_untouched m ρ c main_arg2 (by decide) (by decide) (by decide)
    have e4 : V1 m ρ c main_arg4 = m ((c : Thread nD τ).loc main_arg4) := W1_untouched m ρ c main_arg4 (by decide) (by decide) (by decide)
    have e5 : V1 m ρ c main_arg5 = m ((c : Thread nD τ).loc main_arg5) := W1_untouched m ρ c main_arg5 (by decide) (by decide) (by decide)
    have g1 : (fun e => V1 m ρ c main_v0 (ix2 0 e)) = fun e => m ((c : Thread nD τ).loc main_arg8) (ix1 e) :=
      funext fun e => (congrFun (W1_v0 m ρ c) _).trans (gam _ e)
    have b1 : (fun e => V1 m ρ c main_v1 (ix2 0 e)) = fun e => m ((c : Thread nD τ).loc main_arg9) (ix1 e) :=
      funext fun e => (congrFun (W1_v1 m ρ c) _).trans (gam _ e)
    have g2 : (fun e => V2 m ρ c main_v0 (ix2 0 e)) = fun e => m ((c : Thread nD τ).loc main_arg8) (ix1 e) :=
      funext fun e => (congrFun ((W2_v0 m ρ c).trans (W1_v0 m ρ c)) _).trans (gam _ e)
    have b2 : (fun e => V2 m ρ c main_v1 (ix2 0 e)) = fun e => m ((c : Thread nD τ).loc main_arg9) (ix1 e) :=
      funext fun e => (congrFun ((W2_v1 m ρ c).trans (W1_v1 m ρ c)) _).trans (gam _ e)
    have o2 : (fun e => V2 m ρ c main_v2 (ix2 0 e)) = fun e => m ((c : Thread nD τ).loc main_arg7) (ix1 e) :=
      funext fun e => (congrFun ((W2_of_ne m ρ c main_v2 (by decide)).trans (W1_v2 m ρ c)) _).trans (bia _ e)
    rw [h3, hout (V2 m ρ) c, hk, hv, hkp (V1 m ρ) c, hvp (V1 m ρ) c, e0, e3, e6, e1, e2, e4, e5, g1, b1, g2, b2, o2]
    rfl

end Cert.KernelIdeal.ResultValue

end
-- ==== Proof.PayProj.lean ====
/-
  The projection and LayerNorm payloads of the two kernel bodies, read entry by entry over the extended reals.

  A block of 512 tokens [1, 512, 1024] is multiplied by a weight stored [out, in]: entry (t, c) of the product is
  ∑ k, x[t, k] * w[c, k]. A product row of 1024 numbers is read as 16 heads of 64 lanes (column = head * 64 + lane);
  each head is normalized over its lanes: the mean is the lane sum divided by 64, the variance the sum of squared
  deviations divided by 64, and an entry becomes (entry - mean) * rsqrt (variance + epsilon) * scale[lane] + shift[lane].
  The key payload reads the normalized heads back as a row of 1024; the query payload multiplies them by 1/8; the
  value payload is the bare product. Changing the number format is the identity on extended reals, so the casts to and
  from the 16-bit format disappear.
-/
import proofs.«122151_j90907277787786_2_alg».proof.Proof.Spec
import proofs.«122151_j90907277787786_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayProj

open Cert.KernelIdeal Cert.KernelIdeal.Gen Idealize.ShloMosaic Idealize.ShloMosaic.ValueIdx

/-! ## The projection's product read at an entry -/

/-- The left operand's row coordinate is the output's row. -/
theorem mm_lhs_0 (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- The weight is stored [out, in]: its row coordinate is the output's column. -/
theorem mm_rhs_0 (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- A block of 512 rows times a weight stored [out, in], accumulated from zero: entry (t, c) is the sum over
    the 1024 input columns k of x[t, k] * w[c, k]. -/
theorem mm_apply {φ₁ φ₂ : FTy} (x : FVec Ideal S512x1024 φ₁) (w : FVec Ideal S1024x1024 φ₂) (t : Fin 512) (c : Fin 1024) :
    matmul dot_S512x1024_S1024x1024_S512x1024_1_1_0_0_n_n none x w (constant (F := Ideal) S512x1024 .f32 0x00000000#32) (ix2 t c)
      = ∑ k : Fin 1024, x (ix2 t k) * w (ix2 c k) := by
  refine (Ideal.matmul_constant_zero_apply dot_S512x1024_S1024x1024_S512x1024_1_1_0_0_n_n none x w (ix2 t c)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 t c)
      ((contrEquiv1 dot_S512x1024_S1024x1024_S512x1024_1_1_0_0_n_n 1024 rfl rfl).symm k) = ix2 t k :=
    funext fun a => Fin.ext (by
      match a with
      | ⟨0, _⟩ => exact mm_lhs_0 _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 t c)
      ((contrEquiv1 dot_S512x1024_S1024x1024_S512x1024_1_1_0_0_n_n 1024 rfl rfl).symm k) = ix2 c k :=
    funext fun a => Fin.ext (by
      match a with
      | ⟨0, _⟩ => exact mm_rhs_0 _ _
      | ⟨1, _⟩ => exact (dot_S512x1024_S1024x1024_S512x1024_1_1_0_0_n_n.rhsIdx_val_of_single rfl _ _).trans hk)
  rw [el, er]

/-! ## The layout operations of the body, read at coordinates -/

/-- A row of 1024 read as 16 heads of 64 lanes: entry (t, h, d) is column h * 64 + d of row t. -/
theorem heads_apply {α : Type} (x : S512x1024.Idx → α) (hc : S512x1024.ShapeCasts S512x16x64) (t : Fin 512) (h : Fin 16) (d : Fin 64) :
    shapeCast S512x16x64 x hc (ix3 t h d) = x (ix2 t (Cert.Spec.col h d)) :=
  shapeCast_apply x hc _ _ (by
    rw [Shape.rowMajor_val_two, Shape.rowMajor_val_three]
    show t.val * 1024 + (h.val * 64 + d.val) = (t.val * 16 + h.val) * 64 + d.val
    omega)

/-- 16 heads of 64 lanes read back as a row of 1024: column c is lane c % 64 of head c / 64. -/
theorem row_apply {α : Type} (x : S512x16x64.Idx → α) (hc : S512x16x64.ShapeCasts S512x1024) (t : Fin 512) (c : Fin 1024) :
    shapeCast S512x1024 x hc (ix2 t c) = x (ix3 t (Cert.Spec.headOf c) (Cert.Spec.laneOf c)) :=
  shapeCast_apply x hc _ _ (by
    rw [Shape.rowMajor_val_three, Shape.rowMajor_val_two]
    show (t.val * 16 + c.val / 64) * 64 + c.val % 64 = t.val * 1024 + c.val
    omega)

/-- One number per (token, head) written as a column of width one. -/
theorem keep_apply {α : Type} (x : S512x16.Idx → α) (hc : S512x16.ShapeCasts S512x16x1) (t : Fin 512) (h : Fin 16) (u : Fin 1) :
    shapeCast S512x16x1 x hc (ix3 t h u) = x (ix2 t h) :=
  shapeCast_apply x hc _ _ (by
    have hu : u.val = 0 := by omega
    rw [Shape.rowMajor_val_two, Shape.rowMajor_val_three]
    show t.val * 16 + h.val = (t.val * 16 + h.val) * 1 + u.val
    omega)

/-- A per-(token, head) number broadcast along the head's 64 lanes. -/
theorem lanes_apply {α : Type} (x : S512x16x1.Idx → α) (hb : S512x16x1.Broadcasts S512x16x64) (t : Fin 512) (h : Fin 16) (d : Fin 64) :
    broadcastTo S512x16x64 x hb (ix3 t h d) = x (ix3 t h (0 : Fin 1)) :=
  broadcastTo_apply x hb _ _ fun a => match a with
    | ⟨0, _⟩ => by show t.val = if (512 : Nat) = 1 then 0 else t.val; rw [if_neg (by decide)]
    | ⟨1, _⟩ => by show h.val = if (16 : Nat) = 1 then 0 else h.val; rw [if_neg (by decide)]
    | ⟨2, _⟩ => by show 0 = if (1 : Nat) = 1 then 0 else d.val; rw [if_pos rfl]

/-- A row of 64 lane values broadcast over every token and head. -/
theorem row64_apply {α : Type} (x : S1x1x64.Idx → α) (hb : S1x1x64.Broadcasts S512x16x64) (t : Fin 512) (h : Fin 16) (d : Fin 64) :
    broadcastTo S512x16x64 x hb (ix3 t h d) = x (ix3 (0 : Fin 1) (0 : Fin 1) d) :=
  broadcastTo_apply x hb _ _ fun a => match a with
    | ⟨0, _⟩ => by show 0 = if (1 : Nat) = 1 then 0 else t.val; rw [if_pos rfl]
    | ⟨1, _⟩ => by show 0 = if (1 : Nat) = 1 then 0 else h.val; rw [if_pos rfl]
    | ⟨2, _⟩ => by show d.val = if (64 : Nat) = 1 then 0 else d.val; rw [if_neg (by decide)]

/-- A [1, 64] row given a second unit axis. -/
theorem unit64_apply {α : Type} (x : S1x64.Idx → α) (hc : S1x64.ShapeCasts S1x1x64) (d : Fin 64) :
    shapeCast S1x1x64 x hc (ix3 (0 : Fin 1) (0 : Fin 1) d) = x (ix2 (0 : Fin 1) d) :=
  shapeCast_apply x hc _ _ (by
    rw [Shape.rowMajor_val_two, Shape.rowMajor_val_three]
    show 0 * 64 + d.val = (0 * 1 + 0) * 64 + d.val
    rfl)

/-- The sum over a head's 64 lanes. -/
theorem laneSum_apply (p : FVec Ideal S512x16x64 .f32) (hr : S512x16x64.Reduces [2] S512x16) (hφ : FKind.Formats .f32)
    (hacc : (0x00000000#32 : BitVec 32) = FKind.add.neutral .f32 hφ) (t : Fin 512) (h : Fin 16) :
    multiReduction .add [2] S512x16 p 0x00000000#32 hr hφ hacc (ix2 t h) = ∑ e : Fin 64, p (ix3 t h e) := by
  refine (Ideal.multiReduction_add_single p 0x00000000#32 hr hφ hacc (ix2 t h)).trans ?_
  refine Finset.sum_congr rfl fun e _ => congrArg p (funext fun a => Fin.ext ?_)
  match a with
  | ⟨0, _⟩ => rfl
  | ⟨1, _⟩ => rfl
  | ⟨2, _⟩ => rfl

/-! ## LayerNorm of every head of a [512, 16, 64] block -/

/-- The mean of each head's 64 lanes, as a column of width one: the lane sum divided by 64. -/
def meanCol (p : FVec Ideal S512x16x64 .f32) : FVec Ideal S512x16x1 .f32 :=
  divf (shapeCast S512x16x1 (multiReduction .add [2] S512x16 p 0x00000000#32 reduces_S512x16x64_S512x16 (.inl rfl) rfl) shapeCasts_S512x16_S512x16x1)
    (broadcast S512x16x1 (Scalar.ofBits .f32 0x42800000#32))

/-- Every lane less its head's mean. -/
def centered (p : FVec Ideal S512x16x64 .f32) : FVec Ideal S512x16x64 .f32 :=
  subf p (broadcastTo S512x16x64 (meanCol p) broadcasts_S512x16x1_S512x16x64)

/-- The biased variance of each head's 64 lanes, as a column of width one. -/
def varCol (p : FVec Ideal S512x16x64 .f32) : FVec Ideal S512x16x1 .f32 :=
  divf (shapeCast S512x16x1 (multiReduction .add [2] S512x16 (mulf (centered p) (centered p)) 0x00000000#32 reduces_S512x16x64_S512x16 (.inl rfl) rfl) shapeCasts_S512x16_S512x16x1)
    (broadcast S512x16x1 (Scalar.ofBits .f32 0x42800000#32))

/-- The normalized block: centered, times the reciprocal square root of variance plus epsilon, times the scale row, plus the
    shift row. -/
def lnBlock (p : FVec Ideal S512x16x64 .f32) (g b : Vec Ideal S1x64 .f32) : FVec Ideal S512x16x64 .f32 :=
  addf
    (mulf
      (mulf (centered p)
        (broadcastTo S512x16x64 (rsqrt (addf (varCol p) (broadcast S512x16x1 (Scalar.ofBits .f32 0x3727C5AC#32)))) broadcasts_S512x16x1_S512x16x64))
      (broadcastTo S512x16x64 (shapeCast S1x1x64 (shapeCast S1x64 g shapeCasts_S1x64_S1x64) shapeCasts_S1x64_S1x1x64) broadcasts_S1x1x64_S512x16x64))
    (broadcastTo S512x16x64 (shapeCast S1x1x64 (shapeCast S1x64 b shapeCasts_S1x64_S1x64) shapeCasts_S1x64_S1x1x64) broadcasts_S1x1x64_S512x16x64)

/-- The mean column at (t, h) is the mean of that head's lanes. -/
theorem meanCol_apply (p : FVec Ideal S512x16x64 .f32) (t : Fin 512) (h : Fin 16) (u : Fin 1) :
    meanCol p (ix3 t h u) = Cert.Spec.mean (fun e => p (ix3 t h e)) := by
  show Ideal.div (shapeCast S512x16x1 _ shapeCasts_S512x16_S512x16x1 (ix3 t h u)) (Ideal.ofBits .f32 0x42800000#32) = Ideal.div _ Cert.Spec.w64
  exact congrArg (Ideal.div · _) ((keep_apply _ _ t h u).trans (laneSum_apply p _ _ _ t h))

/-- A centered entry is the entry less its head's mean. -/
theorem centered_apply (p : FVec Ideal S512x16x64 .f32) (t : Fin 512) (h : Fin 16) (d : Fin 64) :
    centered p (ix3 t h d) = p (ix3 t h d) - Cert.Spec.mean (fun e => p (ix3 t h e)) := by
  show p (ix3 t h d) - broadcastTo S512x16x64 (meanCol p) broadcasts_S512x16x1_S512x16x64 (ix3 t h d) = _
  rw [lanes_apply, meanCol_apply]

/-- The variance column at (t, h) is the biased variance of that head's lanes. -/
theorem varCol_apply (p : FVec Ideal S512x16x64 .f32) (t : Fin 512) (h : Fin 16) (u : Fin 1) :
    varCol p (ix3 t h u) = Cert.Spec.var (fun e => p (ix3 t h e)) := by
  show Ideal.div (shapeCast S512x16x1 _ shapeCasts_S512x16_S512x16x1 (ix3 t h u)) (Ideal.ofBits .f32 0x42800000#32) = Ideal.div _ Cert.Spec.w64
  refine congrArg (Ideal.div · _) ?_
  refine ((keep_apply _ _ t h u).trans (laneSum_apply _ _ _ _ t h)).trans (Finset.sum_congr rfl fun e _ => ?_)
  show centered p (ix3 t h e) * centered p (ix3 t h e) = _
  rw [centered_apply]

/-- The normalized block at (t, h, d) is the LayerNorm of head h of token t, at lane d. -/
theorem lnBlock_apply (p : FVec Ideal S512x16x64 .f32) (g b : Vec Ideal S1x64 .f32) (t : Fin 512) (h : Fin 16) (d : Fin 64) :
    lnBlock p g b (ix3 t h d)
      = Cert.Spec.ln (fun e => p (ix3 t h e)) (fun e => g (ix2 0 e)) (fun e => b (ix2 0 e)) d := by
  show centered p (ix3 t h d)
        * broadcastTo S512x16x64 (rsqrt (addf (varCol p) (broadcast S512x16x1 (Scalar.ofBits .f32 0x3727C5AC#32)))) broadcasts_S512x16x1_S512x16x64 (ix3 t h d)
        * broadcastTo S512x16x64 (shapeCast S1x1x64 (shapeCast S1x64 g shapeCasts_S1x64_S1x64) shapeCasts_S1x64_S1x1x64) broadcasts_S1x1x64_S512x16x64 (ix3 t h d)
      + broadcastTo S512x16x64 (shapeCast S1x1x64 (shapeCast S1x64 b shapeCasts_S1x64_S1x64) shapeCasts_S1x64_S1x1x64) broadcasts_S1x1x64_S512x16x64 (ix3 t h d) = _
  rw [centered_apply, lanes_apply, row64_apply, row64_apply, unit64_apply, unit64_apply, shapeCast_self, shapeCast_self]
  show _ * Ideal.rsqrt (varCol p (ix3 t h (0 : Fin 1)) + Ideal.ofBits .f32 0x3727C5AC#32) * _ + _ = _
  rw [varCol_apply]
  rfl

/-! ## The three payloads -/

/-- The projection of the body: the block cast to [512, 1024] times the weight, both first narrowed to the
    16-bit format, which changes nothing on extended reals. Entry (t, c) is the row of token t against row c of the weight. -/
theorem proj_apply (x : Vec Ideal S1x512x1024 .f32) (w : Vec Ideal S1024x1024 .f32) (t : Fin 512) (c : Fin 1024) :
    matmul dot_S512x1024_S1024x1024_S512x1024_1_1_0_0_n_n none
        (truncf .bf16 (shapeCast S512x1024 x shapeCasts_S1x512x1024_S512x1024) bitsLt_bf16_f32)
        (truncf .bf16 w bitsLt_bf16_f32) (constant (F := Ideal) S512x1024 .f32 0x00000000#32) (ix2 t c)
      = ∑ k : Fin 1024, x (ix3 0 t k) * w (ix2 c k) := by
  refine (mm_apply _ _ t c).trans (Finset.sum_congr rfl fun k _ => ?_)
  show shapeCast S512x1024 x shapeCasts_S1x512x1024_S512x1024 (ix2 t k) * w (ix2 c k) = _
  rw [shapeCast_1ab_ab_apply]

/-- The projected block read as 16 heads of 64 lanes. -/
def projHeads (x : Vec Ideal S1x512x1024 .f32) (w : Vec Ideal S1024x1024 .f32) : FVec Ideal S512x16x64 .f32 :=
  shapeCast S512x16x64
    (matmul dot_S512x1024_S1024x1024_S512x1024_1_1_0_0_n_n none
      (truncf .bf16 (shapeCast S512x1024 x shapeCasts_S1x512x1024_S512x1024) bitsLt_bf16_f32)
      (truncf .bf16 w bitsLt_bf16_f32) (constant (F := Ideal) S512x1024 .f32 0x00000000#32))
    shapeCasts_S512x1024_S512x16x64

/-- Lane e of head h of token t of the projected block is the token's row against weight row h * 64 + e. -/
theorem projHeads_apply (x : Vec Ideal S1x512x1024 .f32) (w : Vec Ideal S1024x1024 .f32) (t : Fin 512) (h : Fin 16) (e : Fin 64) :
    projHeads x w (ix3 t h e) = ∑ k : Fin 1024, x (ix3 0 t k) * w (ix2 (Cert.Spec.col h e) k) :=
  (heads_apply _ _ t h e).trans (proj_apply x w t (Cert.Spec.col h e))

/-- The key payload is the normalized projected block, read back as rows of 1024 with a leading unit axis. -/
theorem k0_pay2_eq (x : Vec Ideal S1x512x1024 .f32) (w : Vec Ideal S1024x1024 .f32) (g b : Vec Ideal S1x64 .f32) :
    Gen.k0_pay2 (F := Ideal) x w g b
      = shapeCast S1x512x1024
          (truncf .bf16 (shapeCast S512x1024 (lnBlock (projHeads x w) g b) shapeCasts_S512x16x64_S512x1024) bitsLt_bf16_f32)
          shapeCasts_S512x1024_S1x512x1024 := rfl

/-- The query payload is the normalized projected block times the constant 1/8. -/
theorem k1_pay2_eq (x : Vec Ideal S1x512x1024 .f32) (w : Vec Ideal S1024x1024 .f32) (g b : Vec Ideal S1x64 .f32) :
    Gen.k1_pay2 (F := Ideal) x w g b
      = mulf (lnBlock (projHeads x w) g b) (broadcast S512x16x64 (Scalar.ofBits .f32 0x3E000000#32)) := rfl

/-- The value payload at (0, t, c): the projection of token t's row onto output column c. -/
theorem pay_v_apply (x : Vec Ideal S1x512x1024 .f32) (w : Vec Ideal S1024x1024 .f32) (t : Fin 512) (c : Fin 1024) :
    Gen.k0_pay1 (F := Ideal) x w (ix3 0 t c) = ∑ k : Fin 1024, x (ix3 0 t k) * w (ix2 c k) := by
  unfold Gen.k0_pay1
  refine (shapeCast_ab_1ab_apply _ _ (0 : Fin 1) t c).trans ?_
  exact proj_apply x w t c

/-- The key payload at (0, t, c): the projection of token t, its head c / 64 normalized over the head's 64 lanes with scale g and
    shift b, read at lane c % 64. -/
theorem pay_k_apply (x : Vec Ideal S1x512x1024 .f32) (w : Vec Ideal S1024x1024 .f32) (g b : Vec Ideal S1x64 .f32) (t : Fin 512) (c : Fin 1024) :
    Gen.k0_pay2 (F := Ideal) x w g b (ix3 0 t c)
      = Cert.Spec.ln (fun e => ∑ k : Fin 1024, x (ix3 0 t k) * w (ix2 (Cert.Spec.col (Cert.Spec.headOf c) e) k))
          (fun e => g (ix2 0 e)) (fun e => b (ix2 0 e)) (Cert.Spec.laneOf c) := by
  rw [k0_pay2_eq]
  refine (shapeCast_ab_1ab_apply _ _ (0 : Fin 1) t c).trans ?_
  refine (row_apply (lnBlock (projHeads x w) g b) _ t c).trans ?_
  rw [lnBlock_apply]
  exact congrArg (fun f => Cert.Spec.ln f _ _ _) (funext fun e => projHeads_apply x w t _ e)

/-- The query payload at (t, h, d): the projection of token t, its head h normalized over the head's 64 lanes with scale g and
    shift b, read at lane d, times 1/8. -/
theorem pay_q_apply (x : Vec Ideal S1x512x1024 .f32) (w : Vec Ideal S1024x1024 .f32) (g b : Vec Ideal S1x64 .f32) (t : Fin 512) (h : Fin 16) (d : Fin 64) :
    Gen.k1_pay2 (F := Ideal) x w g b (ix3 t h d)
      = Cert.Spec.ln (fun e => ∑ k : Fin 1024, x (ix3 0 t k) * w (ix2 (Cert.Spec.col h e) k))
          (fun e => g (ix2 0 e)) (fun e => b (ix2 0 e)) d * Cert.Spec.wScale := by
  rw [k1_pay2_eq]
  show lnBlock (projHeads x w) g b (ix3 t h d) * Ideal.ofBits .f32 0x3E000000#32 = _
  rw [lnBlock_apply]
  exact congrArg (fun f => Cert.Spec.ln f _ _ d * Cert.Spec.wScale) (funext fun e => projHeads_apply x w t h e)

end Cert.KernelIdeal.PayProj

end
-- ==== Proof.Region0.lean ====
/-
  The first region's two outputs as whole arrays.

  The region runs the projection body on a 4 × 4 grid. Point t has coordinates (t / 4, t % 4): it reads the block of 512
  tokens (t % 4) * 512 … of batch t / 4 of k and of v, the two whole weights and the whole scale and shift rows, and writes
  the same rows of the two outputs. Each written block is the matching block of ONE function of the arrays the region finds:
  the projected, head-normalized keys, and the projected values. The 16 blocks tile the [4, 2048, 1024] outputs (row n of
  batch b is in the block of point (b, n / 512)), so after the region each output is that function, entry by entry.
-/
import proofs.«122151_j90907277787786_2_alg».proof.Proof.PayProj
import proofs.«122151_j90907277787786_2_alg».proof.Proof.Gen.KernelIdeal.Frame

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where each window's block sits -/

/-- The offset (0, 0, 0) is the zero function on three axes. -/
theorem hz3 : (![0, 0, 0] : Fin 3 → Nat) = fun _ => 0 := funext fun a => by fin_cases a <;> rfl
/-- The offset (0, 0) is the zero function on two axes. -/
theorem hz2 : (![0, 0] : Fin 2 → Nat) = fun _ => 0 := funext fun a => by fin_cases a <;> rfl

/-- Point t of the 4 × 4 grid has coordinates (t / 4, t % 4); the blocks of k, v and of the two outputs sit at block
    index (t / 4, t % 4, 0). -/
theorem idx_blocks : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

/-- The two weights and the scale and shift rows are whole-array windows: block index 0 on every axis, at every point. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-! ## The input blocks as entries of the arrays -/

/-- The block of k at point t: batch t / 4, tokens (t % 4) * 512 … + 511, all 1024 columns. -/
theorem iblk_k_apply (c : Dev nD) (t : Fin cfg0.N) (y : S1x512x1024.Idx) (i : S4x2048x1024.Idx)
    (h0 : (i 0).val = t.val / 4 + (y 0).val) (h1 : (i 1).val = t.val % 4 * 512 + (y 1).val) (h2 : (i 2).val = (y 2).val) :
    (iblk0 V c 0 t : Vec Ideal S1x512x1024 .f32) y = (V c main_arg1 : S4x2048x1024.Idx → EReal) i := by
  obtain ⟨⟨e0, e1, e2⟩, -⟩ := idx_blocks t
  show V c main_arg1 (((cfg0.win 0).blk t).view.emb y) = V c main_arg1 i
  refine congrArg (V c main_arg1) (funext fun a => Fin.ext ?_)
  match a with
  | ⟨0, _⟩ => show win0_0.index t (0 : Fin 3) * 1 + 1 * (y 0).val = (i 0).val; rw [e0, h0]; omega
  | ⟨1, _⟩ => show win0_0.index t (1 : Fin 3) * 512 + 1 * (y 1).val = (i 1).val; rw [e1, h1]; omega
  | ⟨2, _⟩ => show win0_0.index t (2 : Fin 3) * 1024 + 1 * (y 2).val = (i 2).val; rw [e2, h2]; omega

/-- The block of v at point t: the same rows of v. -/
theorem iblk_v_apply (c : Dev nD) (t : Fin cfg0.N) (y : S1x512x1024.Idx) (i : S4x2048x1024.Idx)
    (h0 : (i 0).val = t.val / 4 + (y 0).val) (h1 : (i 1).val = t.val % 4 * 512 + (y 1).val) (h2 : (i 2).val = (y 2).val) :
    (iblk0 V c 1 t : Vec Ideal S1x512x1024 .f32) y = (V c main_arg2 : S4x2048x1024.Idx → EReal) i := by
  obtain ⟨-, ⟨e0, e1, e2⟩, -⟩ := idx_blocks t
  show V c main_arg2 (((cfg0.win 1).blk t).view.emb y) = V c main_arg2 i
  refine congrArg (V c main_arg2) (funext fun a => Fin.ext ?_)
  match a with
  | ⟨0, _⟩ => show win0_1.index t (0 : Fin 3) * 1 + 1 * (y 0).val = (i 0).val; rw [e0, h0]; omega
  | ⟨1, _⟩ => show win0_1.index t (1 : Fin 3) * 512 + 1 * (y 1).val = (i 1).val; rw [e1, h1]; omega
  | ⟨2, _⟩ => show win0_1.index t (2 : Fin 3) * 1024 + 1 * (y 2).val = (i 2).val; rw [e2, h2]; omega

/-- The key weight's block is the whole weight, at every point. -/
theorem iblk_wk_eq (c : Dev nD) (t : Fin cfg0.N) :
    (iblk0 V c 2 t : Vec Ideal S1024x1024 .f32) = (V c main_arg4 : S1024x1024.Idx → EReal) := by
  obtain ⟨⟨e0, e1⟩, -⟩ := idx_whole t
  funext y
  show V c main_arg4 (((cfg0.win 2).blk t).view.emb y) = V c main_arg4 y
  refine congrArg (V c main_arg4) (funext fun a => Fin.ext ?_)
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

/-- The value weight's block is the whole weight. -/
theorem iblk_wv_eq (c : Dev nD) (t : Fin cfg0.N) :
    (iblk0 V c 3 t : Vec Ideal S1024x1024 .f32) = (V c main_arg5 : S1024x1024.Idx → EReal) := by
  obtain ⟨-, ⟨e0, e1⟩, -⟩ := idx_whole t
  funext y
  show V c main_arg5 (((cfg0.win 3).blk t).view.emb y) = V c main_arg5 y
  refine congrArg (V c main_arg5) (funext fun a => Fin.ext ?_)
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- The scale row's block is the whole row. -/
theorem iblk_g_eq (c : Dev nD) (t : Fin cfg0.N) :
    (iblk0 V c 4 t : Vec Ideal S1x64 .f32) = (V c main_v0 : S1x64.Idx → EReal) := by
  obtain ⟨-, -, ⟨e0, e1⟩, -⟩ := idx_whole t
  funext y
  show V c main_v0 (((cfg0.win 4).blk t).view.emb y) = V c main_v0 y
  refine congrArg (V c main_v0) (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The shift row's block is the whole row. -/
theorem iblk_b_eq (c : Dev nD) (t : Fin cfg0.N) :
    (iblk0 V c 5 t : Vec Ideal S1x64 .f32) = (V c main_v1 : S1x64.Idx → EReal) := by
  obtain ⟨-, -, -, ⟨e0, e1⟩⟩ := idx_whole t
  funext y
  show V c main_v1 (((cfg0.win 5).blk t).view.emb y) = V c main_v1 y
  refine congrArg (V c main_v1) (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-! ## One block's payload is the block of the specification's array -/

/-- If a [1, 512, 1024] block x holds rows q1 * 512 … of batch q0 of the array K, the key payload of x at a block entry
    is the specification's normalized key array at the matching array entry. -/
theorem kp_block_entry (K : Cert.Spec.A3 4 2048 1024) (Wk : Vec Ideal S1024x1024 .f32) (g b : Vec Ideal S1x64 .f32)
    (x : Vec Ideal S1x512x1024 .f32) (q0 q1 : Nat)
    (hx : ∀ (y : S1x512x1024.Idx) (i : S4x2048x1024.Idx), (i 0).val = q0 + (y 0).val → (i 1).val = q1 * 512 + (y 1).val →
      (i 2).val = (y 2).val → x y = K i)
    (y : S1x512x1024.Idx) (i : S4x2048x1024.Idx) (h0 : (i 0).val = q0 + (y 0).val) (h1 : (i 1).val = q1 * 512 + (y 1).val)
    (h2 : (i 2).val = (y 2).val) :
    Gen.k0_pay2 (F := Ideal) x Wk g b y = Cert.Spec.kpArr K Wk (fun e => g (ix2 0 e)) (fun e => b (ix2 0 e)) i := by
  obtain ⟨u, r, cc, rfl⟩ : ∃ (u : Fin 1) (r : Fin 512) (cc : Fin 1024), y = ix3 u r cc := ⟨y 0, y 1, y 2, eq_ix3 y⟩
  obtain ⟨bt, n, c2, rfl⟩ : ∃ (bt : Fin 4) (n : Fin 2048) (c2 : Fin 1024), i = ix3 bt n c2 := ⟨i 0, i 1, i 2, eq_ix3 i⟩
  obtain rfl : u = 0 := Subsingleton.elim _ _
  obtain rfl : c2 = cc := Fin.ext h2
  have hrow : ∀ k : Fin 1024, x (ix3 0 r k) = K (ix3 bt n k) := fun k => hx _ _ h0 h1 rfl
  rw [PayProj.pay_k_apply]
  show Cert.Spec.ln (fun e => ∑ k : Fin 1024, x (ix3 0 r k) * Wk (ix2 (Cert.Spec.col (Cert.Spec.headOf c2) e) k)) _ _ (Cert.Spec.laneOf c2)
    = Cert.Spec.ln (fun e => ∑ k : Fin 1024, K (ix3 bt n k) * Wk (ix2 (Cert.Spec.col (Cert.Spec.headOf c2) e) k)) _ _ (Cert.Spec.laneOf c2)
  simp only [hrow]

/-- Likewise the value payload of a block of rows of the array Vv is the specification's projected value array. -/
theorem vp_block_entry (Vv : Cert.Spec.A3 4 2048 1024) (Wv : Vec Ideal S1024x1024 .f32)
    (x : Vec Ideal S1x512x1024 .f32) (q0 q1 : Nat)
    (hx : ∀ (y : S1x512x1024.Idx) (i : S4x2048x1024.Idx), (i 0).val = q0 + (y 0).val → (i 1).val = q1 * 512 + (y 1).val →
      (i 2).val = (y 2).val → x y = Vv i)
    (y : S1x512x1024.Idx) (i : S4x2048x1024.Idx) (h0 : (i 0).val = q0 + (y 0).val) (h1 : (i 1).val = q1 * 512 + (y 1).val)
    (h2 : (i 2).val = (y 2).val) :
    Gen.k0_pay1 (F := Ideal) x Wv y = Cert.Spec.vpArr Vv Wv i := by
  obtain ⟨u, r, cc, rfl⟩ : ∃ (u : Fin 1) (r : Fin 512) (cc : Fin 1024), y = ix3 u r cc := ⟨y 0, y 1, y 2, eq_ix3 y⟩
  obtain ⟨bt, n, c2, rfl⟩ : ∃ (bt : Fin 4) (n : Fin 2048) (c2 : Fin 1024), i = ix3 bt n c2 := ⟨i 0, i 1, i 2, eq_ix3 i⟩
  obtain rfl : u = 0 := Subsingleton.elim _ _
  obtain rfl : c2 = cc := Fin.ext h2
  have hrow : ∀ k : Fin 1024, x (ix3 0 r k) = Vv (ix3 bt n k) := fun k => hx _ _ h0 h1 rfl
  rw [PayProj.pay_v_apply]
  show (∑ k : Fin 1024, x (ix3 0 r k) * Wv (ix2 c2 k)) = ∑ k : Fin 1024, Vv (ix3 bt n k) * Wv (ix2 c2 k)
  simp only [hrow]

/-! ## What each point writes back, and the arrays after the region -/

/-- What point t writes back into the key output is block t of the specification's normalized key array of the arrays the
    region finds. -/
theorem kp_flushed (c : Dev nD) (t : Fin cfg0.N) :
    (dat0 V c).flushed 6 t = ((cfg0.win 6).blk t).view.read (Elt Ideal)
      (Cert.Spec.kpArr (V c main_arg1) (V c main_arg4) (fun e => V c main_v0 (ix2 0 e)) (fun e => V c main_v1 (ix2 0 e))) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024x1024) hz2, View.ld_unit_zero (S := S1x64) hz2]
  rw [iblk_wk_eq, iblk_g_eq, iblk_b_eq]
  obtain ⟨-, -, ⟨e0, e1, e2⟩, -⟩ := idx_blocks t
  funext y
  refine kp_block_entry (V c main_arg1) (V c main_arg4) (V c main_v0) (V c main_v1) (iblk0 V c 0 t) (t.val / 4) (t.val % 4)
    (fun y i h0 h1 h2 => iblk_k_apply V c t y i h0 h1 h2) _ _ ?_ ?_ ?_
  · show win0_6.index t (0 : Fin 3) * 1 + 1 * (y 0).val = t.val / 4 + (y 0).val; rw [e0]; omega
  · show win0_6.index t (1 : Fin 3) * 512 + 1 * (y 1).val = t.val % 4 * 512 + (y 1).val; rw [e1]; omega
  · show win0_6.index t (2 : Fin 3) * 1024 + 1 * (y 2).val = (y 2).val; rw [e2]; omega

/-- What point t writes back into the value output is block t of the specification's projected value array. -/
theorem vp_flushed (c : Dev nD) (t : Fin cfg0.N) :
    (dat0 V c).flushed 7 t = ((cfg0.win 7).blk t).view.read (Elt Ideal) (Cert.Spec.vpArr (V c main_arg2) (V c main_arg5)) := by
  show (cfg0.win 7).cut (grid0.coords t) ((dat0 V c).after 7 t) = _
  rw [after0_7]
  unfold out0_7
  rw [View.canon_unit_zero hz3]
  simp only [View.ld_unit_zero (S := S1x512x1024) hz3, View.ld_unit_zero (S := S1024x1024) hz2]
  rw [iblk_wv_eq]
  obtain ⟨-, -, -, ⟨e0, e1, e2⟩⟩ := idx_blocks t
  funext y
  refine vp_block_entry (V c main_arg2) (V c main_arg5) (iblk0 V c 1 t) (t.val / 4) (t.val % 4)
    (fun y i h0 h1 h2 => iblk_v_apply V c t y i h0 h1 h2) _ _ ?_ ?_ ?_
  · show win0_7.index t (0 : Fin 3) * 1 + 1 * (y 0).val = t.val / 4 + (y 0).val; rw [e0]; omega
  · show win0_7.index t (1 : Fin 3) * 512 + 1 * (y 1).val = t.val % 4 * 512 + (y 1).val; rw [e1]; omega
  · show win0_7.index t (2 : Fin 3) * 1024 + 1 * (y 2).val = (y 2).val; rw [e2]; omega

/-- An entry of the key output is in point t's block iff each coordinate is in the block's range on its axis. -/
theorem mem_blk_kp (t : Fin cfg0.N) (i : S4x2048x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v3_0).slice (win0_6.rect t)).set ↔ _
  rw [View.set_slice_whole, Rect.mem_set_unit]
  exact Iff.rfl

/-- The same for the value output. -/
theorem mem_blk_vp (t : Fin cfg0.N) (i : S4x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v3_1).slice (win0_7.rect t)).set ↔ _
  rw [View.set_slice_whole, Rect.mem_set_unit]
  exact Iff.rfl

/-- The 16 blocks tile the key output: row n of batch b lies in the block of the point with coordinates (b, n / 512). -/
theorem kp_cover (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  have hN : cfg0.N = 16 := N_0
  obtain ⟨t, ht⟩ : ∃ t : Fin cfg0.N, t.val = (i 0).val * 4 + (i 1).val / 512 := ⟨⟨(i 0).val * 4 + (i 1).val / 512, by rw [hN]; omega⟩, rfl⟩
  obtain ⟨-, -, ⟨e0, e1, e2⟩, -⟩ := idx_blocks t
  refine ⟨t, flush0_6 t, ?_⟩
  rw [mem_blk_kp]
  intro a
  match a with
  | ⟨0, _⟩ => show win0_6.index t (0 : Fin 3) * 1 ≤ (i 0).val ∧ (i 0).val < win0_6.index t (0 : Fin 3) * 1 + 1; rw [e0, ht]; omega
  | ⟨1, _⟩ => show win0_6.index t (1 : Fin 3) * 512 ≤ (i 1).val ∧ (i 1).val < win0_6.index t (1 : Fin 3) * 512 + 512; rw [e1, ht]; omega
  | ⟨2, _⟩ => show win0_6.index t (2 : Fin 3) * 1024 ≤ (i 2).val ∧ (i 2).val < win0_6.index t (2 : Fin 3) * 1024 + 1024; rw [e2]; omega

/-- The 16 blocks tile the value output likewise. -/
theorem vp_cover (i : S4x2048x1024.Idx) :
    ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 1024 := (i 2).isLt
  have hN : cfg0.N = 16 := N_0
  obtain ⟨t, ht⟩ : ∃ t : Fin cfg0.N, t.val = (i 0).val * 4 + (i 1).val / 512 := ⟨⟨(i 0).val * 4 + (i 1).val / 512, by rw [hN]; omega⟩, rfl⟩
  obtain ⟨-, -, -, ⟨e0, e1, e2⟩⟩ := idx_blocks t
  refine ⟨t, flush0_7 t, ?_⟩
  rw [mem_blk_vp]
  intro a
  match a with
  | ⟨0, _⟩ => show win0_7.index t (0 : Fin 3) * 1 ≤ (i 0).val ∧ (i 0).val < win0_7.index t (0 : Fin 3) * 1 + 1; rw [e0, ht]; omega
  | ⟨1, _⟩ => show win0_7.index t (1 : Fin 3) * 512 ≤ (i 1).val ∧ (i 1).val < win0_7.index t (1 : Fin 3) * 512 + 512; rw [e1, ht]; omega
  | ⟨2, _⟩ => show win0_7.index t (2 : Fin 3) * 1024 ≤ (i 2).val ∧ (i 2).val < win0_7.index t (2 : Fin 3) * 1024 + 1024; rw [e2]; omega

/-- After the region the key output holds the specification's projected, normalized keys of the k array, the key weight and
    the scale and shift rows the region found. -/
theorem kp_array (c : Dev nD) :
    (Gen.dat0 (F := Ideal) V c).arrAt 6 cfg0.N
      = Cert.Spec.kpArr (V c main_arg1) (V c main_arg4) (fun e => V c main_v0 (ix2 0 e)) (fun e => V c main_v1 (ix2 0 e)) :=
  (dat0 V c).arrAt_eq_of_cover 6 _ (fun t _ => kp_flushed V c t) kp_cover

/-- After the region the value output holds the specification's projected values of the v array and the value weight the
    region found. -/
theorem vp_array (c : Dev nD) :
    (Gen.dat0 (F := Ideal) V c).arrAt 7 cfg0.N = Cert.Spec.vpArr (V c main_arg2) (V c main_arg5) :=
  (dat0 V c).arrAt_eq_of_cover 7 _ (fun t _ => vp_flushed V c t) vp_cover

end Cert.KernelIdeal.Region0

end
-- ==== Proof.PayAttn.lean ====
/-
  One grid point of the attention kernel, read at an index.

  The body holds 512 tokens. For each token it has the 16 normalized query heads (64 lanes each), and the
  key and value rows of 1024 numbers, which it reads as 16 heads of 64 lanes. Per token it scores every
  query head against every key head (a sum over the 64 lanes), takes the softmax over the 16 key heads
  (row maximum started at minus infinity, subtract, exponentiate, divide by the sum) and mixes the 16
  value heads with the weights. The result [512, 16, 64] (token, head, lane) is re-laid as a matrix
  [512, 1024]: row h * 32 + a, column w * 64 + d holds token a * 16 + w, head h, lane d. That matrix is
  multiplied by the transposed output weight, the bias is added, and the rows are regrouped as
  [1, 16, 32, 1024].

  Each non-pointwise step is read at explicit coordinates by one lemma; the last theorem chains them.
-/
import proofs.«122151_j90907277787786_2_alg».proof.Proof.Spec
import proofs.«122151_j90907277787786_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAttn

open Cert.KernelIdeal Cert.KernelIdeal.Gen Idealize.ShloMosaic Idealize.ShloMosaic.ValueIdx

/-! ## The stages of the body, named -/

/-- A block [1, 512, 1024] read as 512 tokens of 16 heads of 64 lanes. -/
def heads (x : Vec Ideal S1x512x1024 .bf16) : FVec Ideal S512x16x64 .f32 :=
  have x1 : FVec Ideal S512x1024 .bf16 := shapeCast S512x1024 x shapeCasts_S1x512x1024_S512x1024
  have x2 : FVec Ideal S512x1024 .f32 := extf .f32 x1 bitsLt_bf16_f32
  shapeCast S512x16x64 x2 shapeCasts_S512x1024_S512x16x64

/-- Per token, every query head against every key head: the sum over the 64 lanes. -/
def scores (q k : FVec Ideal S512x16x64 .f32) : FVec Ideal S512x16x16 .f32 :=
  matmul dot_S512x16x64_S512x16x64_S512x16x16_2_2_1_1_0_0 none q k (constant S512x16x16 .f32 0x00000000#32)

/-- Token `t`, head `h`, lane `d` of the block read as heads is column `h * 64 + d` of row `t`. -/
theorem heads_apply (x : Vec Ideal S1x512x1024 .bf16) (t : Fin 512) (h : Fin 16) (d : Fin 64) :
    heads x (ix3 t h d) = x (ix3 0 t (Cert.Spec.col h d)) := by
  unfold heads
  refine (shapeCast_apply _ _ (ix3 t h d) (ix2 t (Cert.Spec.col h d)) ?_).trans ?_
  · rw [Shape.rowMajor_val_two, Shape.rowMajor_val_three]
    show t.val * 1024 + (h.val * 64 + d.val) = (t.val * 16 + h.val) * 64 + d.val
    omega
  · refine (shapeCast_apply _ _ (ix2 t (Cert.Spec.col h d)) (ix3 0 t (Cert.Spec.col h d)) ?_)
    rw [Shape.rowMajor_val_two, Shape.rowMajor_val_three]
    show (0 * 512 + t.val) * 1024 + (h.val * 64 + d.val) = t.val * 1024 + (h.val * 64 + d.val)
    omega

/-! ## The scores -/

/-! Where the score product reads its operands: the batch axis (the token) from the result's first coordinate, each
operand's head from the result's second and third, the lane from the contraction position. -/
/-- The score product: the left operand's axis 0 is the batch axis and reads the result's coordinate 0. -/
theorem d1_lhs_0 (j : S512x16x16.Idx) (q : dot_S512x16x64_S512x16x64_S512x16x16_2_2_1_1_0_0.contr.Idx) :
    (dot_S512x16x64_S512x16x64_S512x16x16_2_2_1_1_0_0.lhsIdx j q 0).val = (j 0).val := by
  unfold DotDims.lhsIdx
  rw [dif_pos (show (0 : Fin S512x16x64.rank) ∈ dot_S512x16x64_S512x16x64_S512x16x16_2_2_1_1_0_0.lhsBatch by decide)]
  rfl
/-- The score product: the left operand's axis 1 is kept and reads the result's coordinate 1. -/
theorem d1_lhs_1 (j : S512x16x16.Idx) (q : dot_S512x16x64_S512x16x64_S512x16x16_2_2_1_1_0_0.contr.Idx) :
    (dot_S512x16x64_S512x16x64_S512x16x16_2_2_1_1_0_0.lhsIdx j q 1).val = (j 1).val := by
  unfold DotDims.lhsIdx
  rw [dif_neg (show ¬(1 : Fin S512x16x64.rank) ∈ dot_S512x16x64_S512x16x64_S512x16x16_2_2_1_1_0_0.lhsBatch by decide), dif_pos (show (1 : Fin S512x16x64.rank) ∈ dot_S512x16x64_S512x16x64_S512x16x16_2_2_1_1_0_0.lhsNonContracting by decide)]
  rfl
/-- The score product: the left operand's axis 2 is the contracted one and reads the contraction position. -/
theorem d1_lhs_2 (j : S512x16x16.Idx) (q : dot_S512x16x64_S512x16x64_S512x16x16_2_2_1_1_0_0.contr.Idx) :
    (dot_S512x16x64_S512x16x64_S512x16x16_2_2_1_1_0_0.lhsIdx j q 2).val = (q ⟨0, by decide⟩).val :=
  dot_S512x16x64_S512x16x64_S512x16x16_2_2_1_1_0_0.lhsIdx_val_of_single rfl j q
/-- The score product: the right operand's axis 0 is the batch axis and reads the result's coordinate 0. -/
theorem d1_rhs_0 (j : S512x16x16.Idx) (q : dot_S512x16x64_S512x16x64_S512x16x16_2_2_1_1_0_0.contr.Idx) :
    (dot_S512x16x64_S512x16x64_S512x16x16_2_2_1_1_0_0.rhsIdx j q 0).val = (j 0).val := by
  unfold DotDims.rhsIdx
  rw [dif_pos (show (0 : Fin S512x16x64.rank) ∈ dot_S512x16x64_S512x16x64_S512x16x16_2_2_1_1_0_0.rhsBatch by decide)]
  rfl
/-- The score product: the right operand's axis 1 is kept and reads the result's coordinate 2. -/
theorem d1_rhs_1 (j : S512x16x16.Idx) (q : dot_S512x16x64_S512x16x64_S512x16x16_2_2_1_1_0_0.contr.Idx) :
    (dot_S512x16x64_S512x16x64_S512x16x16_2_2_1_1_0_0.rhsIdx j q 1).val = (j 2).val := by
  unfold DotDims.rhsIdx
  rw [dif_neg (show ¬(1 : Fin S512x16x64.rank) ∈ dot_S512x16x64_S512x16x64_S512x16x16_2_2_1_1_0_0.rhsBatch by decide), dif_pos (show (1 : Fin S512x16x64.rank) ∈ dot_S512x16x64_S512x16x64_S512x16x16_2_2_1_1_0_0.rhsNonContracting by decide)]
  rfl
/-- The score product: the right operand's axis 2 is the contracted one and reads the contraction position. -/
theorem d1_rhs_2 (j : S512x16x16.Idx) (q : dot_S512x16x64_S512x16x64_S512x16x16_2_2_1_1_0_0.contr.Idx) :
    (dot_S512x16x64_S512x16x64_S512x16x16_2_2_1_1_0_0.rhsIdx j q 2).val = (q ⟨0, by decide⟩).val :=
  dot_S512x16x64_S512x16x64_S512x16x16_2_2_1_1_0_0.rhsIdx_val_of_single rfl j q

/-- A score: query head `h` against key head `g` of token `t`, the sum over the 64 lanes of the products. -/
theorem scores_apply (q k : FVec Ideal S512x16x64 .f32) (t : Fin 512) (h g : Fin 16) :
    scores q k (ix3 t h g) = ∑ d : Fin 64, q (ix3 t h d) * k (ix3 t g d) := by
  unfold scores
  simp only [matmul]
  rw [Ideal.matmul_constant_zero_apply, ← Equiv.sum_comp (contrEquiv1 dot_S512x16x64_S512x16x64_S512x16x16_2_2_1_1_0_0 64 rfl rfl).symm]
  refine Finset.sum_congr rfl fun d _ => ?_
  have hk := contrEquiv1_symm_val dot_S512x16x64_S512x16x64_S512x16x16_2_2_1_1_0_0 64 rfl rfl d
  have el : dot_S512x16x64_S512x16x64_S512x16x16_2_2_1_1_0_0.lhsIdx (ix3 t h g) ((contrEquiv1 dot_S512x16x64_S512x16x64_S512x16x16_2_2_1_1_0_0 64 rfl rfl).symm d) = ix3 t h d := funext fun a => Fin.ext (by
    match a with
    | ⟨0, _⟩ => exact d1_lhs_0 _ _
    | ⟨1, _⟩ => exact d1_lhs_1 _ _
    | ⟨2, _⟩ => exact (d1_lhs_2 _ _).trans hk)
  have er : dot_S512x16x64_S512x16x64_S512x16x16_2_2_1_1_0_0.rhsIdx (ix3 t h g) ((contrEquiv1 dot_S512x16x64_S512x16x64_S512x16x16_2_2_1_1_0_0 64 rfl rfl).symm d) = ix3 t g d := funext fun a => Fin.ext (by
    match a with
    | ⟨0, _⟩ => exact d1_rhs_0 _ _
    | ⟨1, _⟩ => exact d1_rhs_1 _ _
    | ⟨2, _⟩ => exact (d1_rhs_2 _ _).trans hk)
  rw [el, er]

/-! ## The softmax over the key heads -/

/-- The largest of a query head's 16 scores, started at minus infinity. -/
def rowMaxV (s : FVec Ideal S512x16x16 .f32) : FVec Ideal S512x16 .f32 :=
  multiReduction (F := Ideal) .maximumf [2] S512x16 s 0xFF800000#32 reduces_S512x16x16_S512x16 (.inl rfl) rfl

/-- A number per (token, query head), kept as a column and repeated for each of the 16 key heads. -/
def spread (x : FVec Ideal S512x16 .f32) : FVec Ideal S512x16x16 .f32 :=
  have x1 : FVec Ideal S512x16x1 .f32 := shapeCast S512x16x1 x shapeCasts_S512x16_S512x16x1
  broadcastTo S512x16x16 x1 broadcasts_S512x16x1_S512x16x16

/-- The exponential of each score less its row's maximum. -/
def expo (s : FVec Ideal S512x16x16 .f32) : FVec Ideal S512x16x16 .f32 :=
  exp (subf s (spread (rowMaxV s)))

/-- The sum of a query head's 16 exponentials. -/
def laneSum (e : FVec Ideal S512x16x16 .f32) : FVec Ideal S512x16 .f32 :=
  multiReduction (F := Ideal) .add [2] S512x16 e 0x00000000#32 reduces_S512x16x16_S512x16 (.inl rfl) rfl

/-- The softmax weights: each exponential divided by its row's sum. -/
def probs (s : FVec Ideal S512x16x16 .f32) : FVec Ideal S512x16x16 .f32 :=
  divf (expo s) (spread (laneSum (expo s)))

/-- The row maximum of token `t`, query head `h` is the running maximum of its 16 scores from minus infinity. -/
theorem rowMaxV_apply (s : FVec Ideal S512x16x16 .f32) (t : Fin 512) (h : Fin 16) :
    rowMaxV s (ix2 t h) = Cert.Spec.rowMax (fun g => s (ix3 t h g)) := by
  unfold rowMaxV
  refine (Ideal.multiReduction_maximumf_single s 0xFF800000#32 reduces_S512x16x16_S512x16 (.inl rfl) rfl (ix2 t h)).trans ?_
  have e : (s ∘ reduces_S512x16x16_S512x16.lift (ix2 t h)) = fun g : Fin 16 => s (ix3 t h g) :=
    funext fun g => congrArg s (funext fun a => Fin.ext (by
      match a with
      | ⟨0, _⟩ => rfl
      | ⟨1, _⟩ => rfl
      | ⟨2, _⟩ => rfl))
  rw [e]
  rfl

/-- The repeated column reads the same number at every key head. -/
theorem spread_apply (x : FVec Ideal S512x16 .f32) (t : Fin 512) (h g : Fin 16) :
    spread x (ix3 t h g) = x (ix2 t h) := by
  unfold spread
  refine (broadcastTo_apply _ _ (ix3 t h g) (ix3 t h 0) (fun a => ?_)).trans ?_
  · match a with
    | ⟨0, _⟩ => show t.val = if (512 : Nat) = 1 then 0 else t.val; rw [if_neg (by decide)]
    | ⟨1, _⟩ => show h.val = if (16 : Nat) = 1 then 0 else h.val; rw [if_neg (by decide)]
    | ⟨2, _⟩ => show 0 = if (1 : Nat) = 1 then 0 else g.val; rw [if_pos rfl]
  · refine shapeCast_apply _ _ (ix3 t h 0) (ix2 t h) ?_
    rw [Shape.rowMajor_val_two, Shape.rowMajor_val_three]
    show t.val * 16 + h.val = (t.val * 16 + h.val) * 1 + 0
    omega

/-- The sum over the key heads. -/
theorem laneSum_apply (e : FVec Ideal S512x16x16 .f32) (t : Fin 512) (h : Fin 16) :
    laneSum e (ix2 t h) = ∑ g : Fin 16, e (ix3 t h g) := by
  unfold laneSum
  refine (Ideal.multiReduction_add_single e 0x00000000#32 reduces_S512x16x16_S512x16 (.inl rfl) rfl (ix2 t h)).trans ?_
  refine Finset.sum_congr rfl fun g _ => congrArg e (funext fun a => Fin.ext (by
    match a with
    | ⟨0, _⟩ => rfl
    | ⟨1, _⟩ => rfl
    | ⟨2, _⟩ => rfl))

/-- The exponential of a score less the maximum of its row. -/
theorem expo_apply (s : FVec Ideal S512x16x16 .f32) (t : Fin 512) (h g : Fin 16) :
    expo s (ix3 t h g) = Cert.Spec.pexp (fun g' => s (ix3 t h g')) g := by
  unfold Cert.Spec.pexp
  show Ideal.exp (s (ix3 t h g) - spread (rowMaxV s) (ix3 t h g)) = _
  rw [spread_apply, rowMaxV_apply]

/-- The softmax weight of key head `g` for query head `h` of token `t`. -/
theorem probs_apply (s : FVec Ideal S512x16x16 .f32) (t : Fin 512) (h g : Fin 16) :
    probs s (ix3 t h g) = Cert.Spec.softmax (fun g' => s (ix3 t h g')) g := by
  unfold Cert.Spec.softmax
  show Ideal.div (expo s (ix3 t h g)) (spread (laneSum (expo s)) (ix3 t h g)) = _
  rw [spread_apply, laneSum_apply, expo_apply]
  exact congrArg _ (Finset.sum_congr rfl fun g' _ => expo_apply s t h g')

/-! ## Mixing the value heads -/

/-- Per token and query head, the value heads mixed with the softmax weights. -/
def mix (p : FVec Ideal S512x16x16 .f32) (v : FVec Ideal S512x16x64 .f32) : FVec Ideal S512x16x64 .f32 :=
  matmul dot_S512x16x16_S512x16x64_S512x16x64_2_1_1_2_0_0 none p v (constant S512x16x64 .f32 0x00000000#32)

/-- The mixing product: the left operand's axis 0 is the batch axis and reads the result's coordinate 0. -/
theorem d2_lhs_0 (j : S512x16x64.Idx) (q : dot_S512x16x16_S512x16x64_S512x16x64_2_1_1_2_0_0.contr.Idx) :
    (dot_S512x16x16_S512x16x64_S512x16x64_2_1_1_2_0_0.lhsIdx j q 0).val = (j 0).val := by
  unfold DotDims.lhsIdx
  rw [dif_pos (show (0 : Fin S512x16x16.rank) ∈ dot_S512x16x16_S512x16x64_S512x16x64_2_1_1_2_0_0.lhsBatch by decide)]
  rfl
/-- The mixing product: the left operand's axis 1 is kept and reads the result's coordinate 1. -/
theorem d2_lhs_1 (j : S512x16x64.Idx) (q : dot_S512x16x16_S512x16x64_S512x16x64_2_1_1_2_0_0.contr.Idx) :
    (dot_S512x16x16_S512x16x64_S512x16x64_2_1_1_2_0_0.lhsIdx j q 1).val = (j 1).val := by
  unfold DotDims.lhsIdx
  rw [dif_neg (show ¬(1 : Fin S512x16x16.rank) ∈ dot_S512x16x16_S512x16x64_S512x16x64_2_1_1_2_0_0.lhsBatch by decide), dif_pos (show (1 : Fin S512x16x16.rank) ∈ dot_S512x16x16_S512x16x64_S512x16x64_2_1_1_2_0_0.lhsNonContracting by decide)]
  rfl
/-- The mixing product: the left operand's axis 2 is the contracted one and reads the contraction position. -/
theorem d2_lhs_2 (j : S512x16x64.Idx) (q : dot_S512x16x16_S512x16x64_S512x16x64_2_1_1_2_0_0.contr.Idx) :
    (dot_S512x16x16_S512x16x64_S512x16x64_2_1_1_2_0_0.lhsIdx j q 2).val = (q ⟨0, by decide⟩).val :=
  dot_S512x16x16_S512x16x64_S512x16x64_2_1_1_2_0_0.lhsIdx_val_of_single rfl j q
/-- The mixing product: the right operand's axis 0 is the batch axis and reads the result's coordinate 0. -/
theorem d2_rhs_0 (j : S512x16x64.Idx) (q : dot_S512x16x16_S512x16x64_S512x16x64_2_1_1_2_0_0.contr.Idx) :
    (dot_S512x16x16_S512x16x64_S512x16x64_2_1_1_2_0_0.rhsIdx j q 0).val = (j 0).val := by
  unfold DotDims.rhsIdx
  rw [dif_pos (show (0 : Fin S512x16x64.rank) ∈ dot_S512x16x16_S512x16x64_S512x16x64_2_1_1_2_0_0.rhsBatch by decide)]
  rfl
/-- The mixing product: the right operand's axis 1 is the contracted one and reads the contraction position. -/
theorem d2_rhs_1 (j : S512x16x64.Idx) (q : dot_S512x16x16_S512x16x64_S512x16x64_2_1_1_2_0_0.contr.Idx) :
    (dot_S512x16x16_S512x16x64_S512x16x64_2_1_1_2_0_0.rhsIdx j q 1).val = (q ⟨0, by decide⟩).val :=
  dot_S512x16x16_S512x16x64_S512x16x64_2_1_1_2_0_0.rhsIdx_val_of_single rfl j q
/-- The mixing product: the right operand's axis 2 is kept and reads the result's coordinate 2. -/
theorem d2_rhs_2 (j : S512x16x64.Idx) (q : dot_S512x16x16_S512x16x64_S512x16x64_2_1_1_2_0_0.contr.Idx) :
    (dot_S512x16x16_S512x16x64_S512x16x64_2_1_1_2_0_0.rhsIdx j q 2).val = (j 2).val := by
  unfold DotDims.rhsIdx
  rw [dif_neg (show ¬(2 : Fin S512x16x64.rank) ∈ dot_S512x16x16_S512x16x64_S512x16x64_2_1_1_2_0_0.rhsBatch by decide), dif_pos (show (2 : Fin S512x16x64.rank) ∈ dot_S512x16x16_S512x16x64_S512x16x64_2_1_1_2_0_0.rhsNonContracting by decide)]
  rfl

/-- Lane `d` of the mix for query head `h` of token `t`: the sum over the key heads of weight times value. -/
theorem mix_apply (p : FVec Ideal S512x16x16 .f32) (v : FVec Ideal S512x16x64 .f32) (t : Fin 512) (h : Fin 16) (d : Fin 64) :
    mix p v (ix3 t h d) = ∑ g : Fin 16, p (ix3 t h g) * v (ix3 t g d) := by
  unfold mix
  simp only [matmul]
  rw [Ideal.matmul_constant_zero_apply, ← Equiv.sum_comp (contrEquiv1 dot_S512x16x16_S512x16x64_S512x16x64_2_1_1_2_0_0 16 rfl rfl).symm]
  refine Finset.sum_congr rfl fun g _ => ?_
  have hk := contrEquiv1_symm_val dot_S512x16x16_S512x16x64_S512x16x64_2_1_1_2_0_0 16 rfl rfl g
  have el : dot_S512x16x16_S512x16x64_S512x16x64_2_1_1_2_0_0.lhsIdx (ix3 t h d) ((contrEquiv1 dot_S512x16x16_S512x16x64_S512x16x64_2_1_1_2_0_0 16 rfl rfl).symm g) = ix3 t h g := funext fun a => Fin.ext (by
    match a with
    | ⟨0, _⟩ => exact d2_lhs_0 _ _
    | ⟨1, _⟩ => exact d2_lhs_1 _ _
    | ⟨2, _⟩ => exact (d2_lhs_2 _ _).trans hk)
  have er : dot_S512x16x16_S512x16x64_S512x16x64_2_1_1_2_0_0.rhsIdx (ix3 t h d) ((contrEquiv1 dot_S512x16x16_S512x16x64_S512x16x64_2_1_1_2_0_0 16 rfl rfl).symm g) = ix3 t g d := funext fun a => Fin.ext (by
    match a with
    | ⟨0, _⟩ => exact d2_rhs_0 _ _
    | ⟨1, _⟩ => exact (d2_rhs_1 _ _).trans hk
    | ⟨2, _⟩ => exact d2_rhs_2 _ _)
  rw [el, er]

/-- The attention result of one token: the scores, their softmax, the mix, all over the coordinates of the three
    inputs. -/
theorem attn_apply (qn : FVec Ideal S512x16x64 .f32) (kp vp : Vec Ideal S1x512x1024 .bf16) (t : Fin 512) (h : Fin 16) (d : Fin 64) :
    mix (probs (scores qn (heads kp))) (heads vp) (ix3 t h d)
      = Cert.Spec.attnRow (fun h' d' => qn (ix3 t h' d')) (fun g' d' => kp (ix3 0 t (Cert.Spec.col g' d')))
          (fun g' d' => vp (ix3 0 t (Cert.Spec.col g' d'))) h d := by
  unfold Cert.Spec.attnRow
  rw [mix_apply]
  refine Finset.sum_congr rfl fun g _ => ?_
  rw [probs_apply, heads_apply]
  have es : (fun g' => scores qn (heads kp) (ix3 t h g'))
      = Cert.Spec.score (fun h' d' => qn (ix3 t h' d')) (fun g' d' => kp (ix3 0 t (Cert.Spec.col g' d'))) h :=
    funext fun g' => by
      unfold Cert.Spec.score
      rw [scores_apply]
      exact Finset.sum_congr rfl fun d' _ => by rw [heads_apply]
  rw [es]

/-! ## The re-laying: [token, head, lane] to rows of 1024 grouped by head -/

/-- The token that column `c'` of the `a`-th row of a head reads, among the body's 512 tokens. -/
def tokIn (a : Fin 32) (c' : Fin 1024) : Fin 512 := ⟨a.val * 16 + c'.val / 64, by have := a.isLt; have := c'.isLt; omega⟩

/-- The `a`-th of head `h`'s 32 rows, among the 512 rows of the re-laid matrix. -/
def rowOf (h : Fin 16) (a : Fin 32) : Fin 512 := ⟨h.val * 32 + a.val, by have := h.isLt; have := a.isLt; omega⟩

/-- The attention result [512, 16, 64] cut into 32 groups of 16 tokens, the head axis moved to the front, and read as a
    matrix [512, 1024]. -/
def relay (x : FVec Ideal S512x16x64 .f32) : FVec Ideal S512x1024 .f32 :=
  have x1 : FVec Ideal S32x16x16x64 .f32 := shapeCast S32x16x16x64 x shapeCasts_S512x16x64_S32x16x16x64
  have x2 : FVec Ideal S16x32x16x64 .f32 := transpose S16x32x16x64 [2, 0, 1, 3] x1 transposes_S32x16x16x64_p2_0_1_3_S16x32x16x64
  shapeCast S512x1024 x2 shapeCasts_S16x32x16x64_S512x1024

/-- Row `h * 32 + a`, column `c'` of the re-laid matrix is lane `c' % 64` of head `h` of token `a * 16 + c' / 64`:
    the row-major position `((h * 32 + a) * 16 + w) * 64 + d` of (h, a, w, d) is that of row `h * 32 + a`, column
    `w * 64 + d`; the transposition reads (a, w, h, d); and that is position `((a * 16 + w) * 16 + h) * 64 + d`, token
    `a * 16 + w`. -/
theorem relay_apply (x : FVec Ideal S512x16x64 .f32) (h : Fin 16) (a : Fin 32) (c' : Fin 1024) :
    relay x (ix2 (rowOf h a) c') = x (ix3 (tokIn a c') h (Cert.Spec.laneOf c')) := by
  have hh := h.isLt
  have ha := a.isLt
  have hc := c'.isLt
  unfold relay
  refine (shapeCast_apply _ _ (ix2 (rowOf h a) c') (ix4 h a (Cert.Spec.headOf c') (Cert.Spec.laneOf c')) ?_).trans ?_
  · rw [Shape.rowMajor_val_two, Shape.rowMajor_val_four]
    show ((h.val * 32 + a.val) * 16 + c'.val / 64) * 64 + c'.val % 64 = (h.val * 32 + a.val) * 1024 + c'.val
    omega
  refine (transpose_apply _ _ _ (ix4 h a (Cert.Spec.headOf c') (Cert.Spec.laneOf c'))
    (ix4 a (Cert.Spec.headOf c') h (Cert.Spec.laneOf c')) (fun b => ?_)).trans ?_
  · match b with
    | ⟨0, _⟩ => rfl
    | ⟨1, _⟩ => rfl
    | ⟨2, _⟩ => rfl
    | ⟨3, _⟩ => rfl
  refine shapeCast_apply _ _ (ix4 a (Cert.Spec.headOf c') h (Cert.Spec.laneOf c')) (ix3 (tokIn a c') h (Cert.Spec.laneOf c')) ?_
  rw [Shape.rowMajor_val_three, Shape.rowMajor_val_four]
  show ((a.val * 16 + c'.val / 64) * 16 + h.val) * 64 + c'.val % 64 = ((a.val * 16 + c'.val / 64) * 16 + h.val) * 64 + c'.val % 64
  rfl

/-! ## The output projection, the bias, the regrouping -/

/-- The rows of the re-laid matrix against the rows of the output weight (stored [out, in]). -/
def outMat (x : FVec Ideal S512x1024 .f32) (wo : Vec Ideal S1024x1024 .f32) : FVec Ideal S512x1024 .f32 :=
  have w1 : FVec Ideal S1024x1024 .bf16 := truncf .bf16 wo bitsLt_bf16_f32
  have x1 : FVec Ideal S512x1024 .bf16 := truncf .bf16 x bitsLt_bf16_f32
  matmul dot_S512x1024_S1024x1024_S512x1024_1_1_0_0_n_n none x1 w1 (constant S512x1024 .f32 0x00000000#32)

/-- The bias [1, 1024] repeated on each of the 512 rows. -/
def biasRows (bo : Vec Ideal S1x1024 .f32) : FVec Ideal S512x1024 .f32 :=
  have b1 : FVec Ideal S1x1024 .f32 := shapeCast S1x1024 bo shapeCasts_S1x1024_S1x1024
  broadcastTo S512x1024 b1 broadcasts_S1x1024_S512x1024

/-- The 512 rows regrouped as 16 heads of 32 rows, under a leading unit axis. -/
def regroup (z : FVec Ideal S512x1024 .f32) : FVec Ideal S1x16x32x1024 .f32 :=
  have z1 : FVec Ideal S16x32x1024 .f32 := shapeCast S16x32x1024 z shapeCasts_S512x1024_S16x32x1024
  shapeCast S1x16x32x1024 z1 shapeCasts_S16x32x1024_S1x16x32x1024

/-- The output projection: the left operand's axis 0 is kept and reads the result's coordinate 0. -/
theorem d3_lhs_0 (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- The output projection: the left operand's axis 1 is the contracted one and reads the contraction position. -/
theorem d3_lhs_1 (j : S512x1024.Idx) (q : dot_S512x1024_S1024x1024_S512x1024_1_1_0_0_n_n.contr.Idx) :
    (dot_S512x1024_S1024x1024_S512x1024_1_1_0_0_n_n.lhsIdx j q 1).val = (q ⟨0, by decide⟩).val :=
  dot_S512x1024_S1024x1024_S512x1024_1_1_0_0_n_n.lhsIdx_val_of_single rfl j q
/-- The output projection: the right operand's axis 0 is kept and reads the result's coordinate 1. -/
theorem d3_rhs_0 (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- The output projection: the right operand's axis 1 is the contracted one and reads the contraction position. -/
theorem d3_rhs_1 (j : S512x1024.Idx) (q : dot_S512x1024_S1024x1024_S512x1024_1_1_0_0_n_n.contr.Idx) :
    (dot_S512x1024_S1024x1024_S512x1024_1_1_0_0_n_n.rhsIdx j q 1).val = (q ⟨0, by decide⟩).val :=
  dot_S512x1024_S1024x1024_S512x1024_1_1_0_0_n_n.rhsIdx_val_of_single rfl j q

/-- Row `r` against row `c` of the weight: the sum over the 1024 columns (the roundings of both operands to sixteen
    bits are the identity on extended reals). -/
theorem outMat_apply (x : FVec Ideal S512x1024 .f32) (wo : Vec Ideal S1024x1024 .f32) (r : Fin 512) (c : Fin 1024) :
    outMat x wo (ix2 r c) = ∑ c' : Fin 1024, x (ix2 r c') * wo (ix2 c c') := by
  unfold outMat
  simp only [matmul]
  rw [Ideal.matmul_constant_zero_apply, ← Equiv.sum_comp (contrEquiv1 dot_S512x1024_S1024x1024_S512x1024_1_1_0_0_n_n 1024 rfl rfl).symm]
  refine Finset.sum_congr rfl fun c' _ => ?_
  have hk := contrEquiv1_symm_val dot_S512x1024_S1024x1024_S512x1024_1_1_0_0_n_n 1024 rfl rfl c'
  have el : dot_S512x1024_S1024x1024_S512x1024_1_1_0_0_n_n.lhsIdx (ix2 r c) ((contrEquiv1 dot_S512x1024_S1024x1024_S512x1024_1_1_0_0_n_n 1024 rfl rfl).symm c') = ix2 r c' := funext fun a => Fin.ext (by
    match a with
    | ⟨0, _⟩ => exact d3_lhs_0 _ _
    | ⟨1, _⟩ => exact (d3_lhs_1 _ _).trans hk)
  have er : dot_S512x1024_S1024x1024_S512x1024_1_1_0_0_n_n.rhsIdx (ix2 r c) ((contrEquiv1 dot_S512x1024_S1024x1024_S512x1024_1_1_0_0_n_n 1024 rfl rfl).symm c') = ix2 c c' := funext fun a => Fin.ext (by
    match a with
    | ⟨0, _⟩ => exact d3_rhs_0 _ _
    | ⟨1, _⟩ => exact (d3_rhs_1 _ _).trans hk)
  rw [el, er]
  rfl

/-- Every row of the repeated bias is the bias. -/
theorem biasRows_apply (bo : Vec Ideal S1x1024 .f32) (r : Fin 512) (c : Fin 1024) :
    biasRows bo (ix2 r c) = bo (ix2 0 c) := by
  unfold biasRows
  refine (broadcastTo_apply _ _ (ix2 r c) (ix2 0 c) (fun a => ?_)).trans ?_
  · match a with
    | ⟨0, _⟩ => show 0 = if (1 : Nat) = 1 then 0 else r.val; rw [if_pos rfl]
    | ⟨1, _⟩ => show c.val = if (1024 : Nat) = 1 then 0 else c.val; rw [if_neg (by decide)]
  · exact congrFun (shapeCast_self bo shapeCasts_S1x1024_S1x1024) (ix2 0 c)

/-- Entry (0, h, a, c) of the regrouped rows is row `h * 32 + a`, column `c`. -/
theorem regroup_apply (z : FVec Ideal S512x1024 .f32) (h : Fin 16) (a : Fin 32) (c : Fin 1024) :
    regroup z (ix4 0 h a c) = z (ix2 (rowOf h a) c) := by
  unfold regroup
  refine (shapeCast_apply _ _ (ix4 0 h a c) (ix3 h a c) ?_).trans ?_
  · rw [Shape.rowMajor_val_three, Shape.rowMajor_val_four]
    show (h.val * 32 + a.val) * 1024 + c.val = ((0 * 16 + h.val) * 32 + a.val) * 1024 + c.val
    omega
  · refine shapeCast_apply _ _ (ix3 h a c) (ix2 (rowOf h a) c) ?_
    rw [Shape.rowMajor_val_two, Shape.rowMajor_val_three]
    rfl

/-! ## The body's stored value -/

/-- The body's stored value is the chain of the named stages. -/
theorem pay_eq_stages (qn : FVec Ideal S512x16x64 .f32) (kp vp : Vec Ideal S1x512x1024 .bf16) (wo : Vec Ideal S1024x1024 .f32)
    (bo : Vec Ideal S1x1024 .f32) :
    Gen.k1_pay1 (F := Ideal) qn kp vp wo bo
      = regroup (addf (outMat (relay (mix (probs (scores qn (heads kp))) (heads vp))) wo) (biasRows bo)) := rfl

/-- ENTRY (0, h, a, c) OF THE BODY'S STORED BLOCK: the `a`-th row of head `h`, output column `c`. Column `c'` of that
    row is lane `c' % 64` of head `h` of the attention result of token `a * 16 + c' / 64`; the row is multiplied by row
    `c` of the output weight and the bias of column `c` is added. -/
theorem pay_out_apply (qn : FVec Ideal S512x16x64 .f32) (kp vp : Vec Ideal S1x512x1024 .bf16) (wo : Vec Ideal S1024x1024 .f32)
    (bo : Vec Ideal S1x1024 .f32) (h : Fin 16) (a : Fin 32) (c : Fin 1024) :
    Gen.k1_pay1 (F := Ideal) qn kp vp wo bo (ix4 0 h a c)
      = (∑ c' : Fin 1024, Cert.Spec.attnRow (fun h' d' => qn (ix3 (tokIn a c') h' d'))
            (fun g' d' => kp (ix3 0 (tokIn a c') (Cert.Spec.col g' d')))
            (fun g' d' => vp (ix3 0 (tokIn a c') (Cert.Spec.col g' d'))) h (Cert.Spec.laneOf c') * wo (ix2 c c'))
        + bo (ix2 0 c) := by
  rw [pay_eq_stages, regroup_apply]
  show outMat _ wo (ix2 (rowOf h a) c) + biasRows bo (ix2 (rowOf h a) c) = _
  rw [outMat_apply, biasRows_apply]
  refine congrArg (· + bo (ix2 0 c)) (Finset.sum_congr rfl fun c' _ => ?_)
  rw [relay_apply, attn_apply]

end Cert.KernelIdeal.PayAttn

end
-- ==== Proof.Region1Cover.lean ====
/-
  The output array of the attention region is filled block by block.

  The output is [16, 16, 128, 1024] (batch, head, row within the head, column). A grid point writes the
  block [1, 16, 32, 1024] whose block index is (batch, 0, row-tile, 0): all 16 heads and all 1024 columns of
  32 consecutive rows of one batch. The 64 grid points reach every pair (batch, row-tile) in 16 x 4, so every
  entry (b, h, s, c) lies in the block of the point with block index (b, 0, s / 32, 0).
-/
import proofs.«122151_j90907277787786_2_alg».proof.Proof.Gen.KernelIdeal.Frame

noncomputable section

namespace Cert.KernelIdeal.Region1Cover

open Cert.KernelIdeal Cert.KernelIdeal.Gen Idealize.ShloMosaic Idealize.ShloMosaic.TcCoe

/-- Every pair (batch, row-tile) is the output block index of some grid point: decided over the 64 points. -/
theorem idx_onto : ∀ (q0 : Fin 16) (q2 : Fin 4), ∃ t : Fin cfg1.N, win1_8.index t = ![q0.val, 0, q2.val, 0] :=
  (by decide +kernel : ∀ (q0 : Fin 16) (q2 : Fin 4), ∃ t : Fin grid1.N, win1_8.index t = ![q0.val, 0, q2.val, 0])

/-- An index of the output array is in point `t`'s block iff each coordinate is in the block's range on its axis:
    from block index times block size, for block size entries. -/
theorem mem_blk (t : Fin cfg1.N) (i : S16x16x128x1024.Idx) :
    i ∈ ((cfg1.win 8).blk t).view.set ↔ ∀ a : Fin 4, win1_8.index t a * S1x16x32x1024.size a ≤ (i a).val ∧ (i a).val < win1_8.index t a * S1x16x32x1024.size a + S1x16x32x1024.size a := by
  show i ∈ ((View.whole main_v4).slice (win1_8.rect t)).set ↔ _
  rw [View.set_slice_whole, Rect.mem_set_unit]
  exact Iff.rfl

/-- Every entry (b, h, s, c) of the output array is written back by some grid point: the one whose block index is
    (b, 0, s / 32, 0). Its block spans batch b alone, all 16 heads, rows 32 * (s / 32) to 32 * (s / 32) + 31 and all
    1024 columns. -/
theorem cover (i : S16x16x128x1024.Idx) :
    ∃ t : Fin cfg1.N, (cfg1.win 8).flush t = true ∧ i ∈ ((cfg1.win 8).blk t).view.set := by
  have h0 : (i 0).val < 16 := (i 0).isLt
  have h1 : (i 1).val < 16 := (i 1).isLt
  have h2 : (i 2).val < 128 := (i 2).isLt
  have h3 : (i 3).val < 1024 := (i 3).isLt
  obtain ⟨t, ht⟩ := idx_onto ⟨(i 0).val, h0⟩ ⟨(i 2).val / 32, by omega⟩
  have q0 : win1_8.index t (0 : Fin 4) = (i 0).val := congrFun ht 0
  have q1 : win1_8.index t (1 : Fin 4) = 0 := congrFun ht 1
  have q2 : win1_8.index t (2 : Fin 4) = (i 2).val / 32 := congrFun ht 2
  have q3 : win1_8.index t (3 : Fin 4) = 0 := congrFun ht 3
  refine ⟨t, flush1_8 t, ?_⟩
  rw [mem_blk]
  intro a
  match a with
  | ⟨0, _⟩ => show win1_8.index t (0 : Fin 4) * 1 ≤ (i 0).val ∧ (i 0).val < win1_8.index t (0 : Fin 4) * 1 + 1; omega
  | ⟨1, _⟩ => show win1_8.index t (1 : Fin 4) * 16 ≤ (i 1).val ∧ (i 1).val < win1_8.index t (1 : Fin 4) * 16 + 16; omega
  | ⟨2, _⟩ => show win1_8.index t (2 : Fin 4) * 32 ≤ (i 2).val ∧ (i 2).val < win1_8.index t (2 : Fin 4) * 32 + 32; omega
  | ⟨3, _⟩ => show win1_8.index t (3 : Fin 4) * 1024 ≤ (i 3).val ∧ (i 3).val < win1_8.index t (3 : Fin 4) * 1024 + 1024; omega

/-- The same cover, with the entry's index typed as the output window's array index on core `c` (the same index
    set, spelt through the window). -/
theorem cover_loc (c : Dev nD) (i : ((cfg1.win 8).arr.view.loc (c.tc : Thread nD τ)).2.ty.Idx) :
    ∃ t : Fin cfg1.N, (cfg1.win 8).flush t = true ∧ i ∈ ((cfg1.win 8).blk t).view.set :=
  cover i

end Cert.KernelIdeal.Region1Cover

end
-- ==== Proof.Region1.lean ====
/-
  The attention region's output array after its 64 grid points.

  Point t (coordinates (i0, i1, i2)) loads block (i2 * 4 + i0, i1) of q — 512 tokens of one query batch —, block
  (i0, i1) of the projected keys and values — the same 512 tokens of key / value batch i0, which is the query batch
  modulo 4 —, the two weight matrices, the bias and the LayerNorm rows whole, and writes block (i2 * 4 + i0, ·, i1, ·)
  of the output [16, 16, 128, 1024]: 16 heads by 32 rows by 1024 columns. Entry (h, a, c) of that block is the output
  projection, at column c, of the row whose column c' is lane c' % 64 of head h of the attention result of token
  a * 16 + c' / 64 of the block; in the whole array that token is (i1 * 32 + a) * 16 + c' / 64, which is how `out4` names it.
  So what each point writes back is its block of the ONE array `out4` of the arrays the region finds on entry, and the
  64 blocks tile the output.
-/
import proofs.«122151_j90907277787786_2_alg».proof.Proof.Gen.KernelIdeal.Frame
import proofs.«122151_j90907277787786_2_alg».proof.Proof.Spec
import proofs.«122151_j90907277787786_2_alg».proof.Proof.PayProj
import proofs.«122151_j90907277787786_2_alg».proof.Proof.PayAttn
import proofs.«122151_j90907277787786_2_alg».proof.Proof.Region1Cover
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen Cert.KernelIdeal.PayAttn Cert.KernelIdeal.PayProj
open Idealize.ShloMosaic Idealize.ShloMosaic.TcCoe Idealize.ShloMosaic.ValueIdx Idealize.SL.Sem
open Idealize.ShloMosaic.Pipeline (Dat)

/-- A load or store at the origin of a buffer: the offsets are all zero. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The block indices of the nine windows at a grid point, related to the output's: q moves with the output's batch
    and row tile; keys and values sit at the batch modulo 4 and the same row tile; everything else is the one whole
    block. Decided over the 64 points. -/
theorem idx_facts : ∀ t : Fin cfg1.N,
    win1_0.index t (0 : Fin 3) = win1_8.index t (0 : Fin 4) ∧ win1_0.index t (1 : Fin 3) = win1_8.index t (2 : Fin 4) ∧ win1_0.index t (2 : Fin 3) = 0
    ∧ win1_1.index t (0 : Fin 3) = win1_8.index t (0 : Fin 4) % 4 ∧ win1_1.index t (1 : Fin 3) = win1_8.index t (2 : Fin 4) ∧ win1_1.index t (2 : Fin 3) = 0
    ∧ win1_2.index t (0 : Fin 3) = win1_8.index t (0 : Fin 4) % 4 ∧ win1_2.index t (1 : Fin 3) = win1_8.index t (2 : Fin 4) ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 4) ≤ 15 ∧ win1_8.index t (1 : Fin 4) = 0 ∧ win1_8.index t (2 : Fin 4) ≤ 3 ∧ win1_8.index t (3 : Fin 4) = 0 :=
  (by decide +kernel : ∀ t : Fin grid1.N, _)

/-- One block of the output from the blocks the body loads: the two payloads composed, at entry j = (0, h, a, c). -/
theorem block_value (x0 : Vec Ideal S1x512x1024 .f32) (x1 x2 : Vec Ideal S1x512x1024 .bf16) (x3 x4 : Vec Ideal S1024x1024 .f32)
    (x5 : Vec Ideal S1x1024 .f32) (x6 x7 : Vec Ideal S1x64 .f32) (j : S1x16x32x1024.Idx) :
    k1_pay1 (F := Ideal) (k1_pay2 (F := Ideal) x0 x3 x6 x7) x1 x2 x4 x5 j
      = (∑ c' : Fin 1024, Cert.Spec.attnRow
          (fun h' d' => Cert.Spec.ln (fun e => ∑ k : Fin 1024, x0 (ix3 0 (tokIn (j 2) c') k) * x3 (ix2 (Cert.Spec.col h' e) k))
            (fun e => x6 (ix2 0 e)) (fun e => x7 (ix2 0 e)) d' * Cert.Spec.wScale)
          (fun g' d' => x1 (ix3 0 (tokIn (j 2) c') (Cert.Spec.col g' d')))
          (fun g' d' => x2 (ix3 0 (tokIn (j 2) c') (Cert.Spec.col g' d'))) (j 1) (Cert.Spec.laneOf c') * x4 (ix2 (j 3) c'))
        + x5 (ix2 0 (j 3)) := by
  obtain ⟨u, h, a, c, rfl⟩ : ∃ (u : Fin 1) (h : Fin 16) (a : Fin 32) (c : Fin 1024), j = ix4 u h a c := ⟨j 0, j 1, j 2, j 3, eq_ix4 j⟩
  obtain rfl : u = 0 := Subsingleton.elim _ _
  rw [pay_out_apply]
  simp only [pay_q_apply]

variable (V : (c : Dev nD) → (b : Ref sig .tc) → Buf (Elt Ideal) ((c : Thread nD τ).loc b))

/-- What point t writes back is its block of `out4` of the arrays the region finds on entry: each loaded block is the
    array read through the point's rectangle, a block's coordinate being index × size + the coordinate inside. -/
theorem flushed_eq (c : Dev nD) (t : Fin cfg1.N) :
    (dat1 (F := Ideal) V c).flushed 8 t = ((cfg1.win 8).blk t).view.read (Elt Ideal)
      (Cert.Spec.out4 (V c main_arg0) (V c main_v3_0) (V c main_v3_1) (V c main_arg3) (V c main_arg6)
        (fun c' => V c main_v2 (ix2 0 c')) (fun e => V c main_v0 (ix2 0 e)) (fun e => V c main_v1 (ix2 0 e))) := by
  show (cfg1.win 8).cut (grid1.coords t) ((dat1 V c).after 8 t) = _
  rw [after1_8]
  unfold out1_8
  rw [View.canon_unit_zero hz4]
  simp only [View.ld_unit_zero (S := S1x512x1024) hz3, View.ld_unit_zero (S := S1024x1024) hz2, View.ld_unit_zero (S := S1x64) hz2, View.ld_unit_zero (S := S1x1024) hz2]
  funext j
  show k1_pay1 (F := Ideal) (k1_pay2 (F := Ideal) (iblk1 V c 0 t) (iblk1 V c 3 t) (iblk1 V c 6 t) (iblk1 V c 7 t)) (iblk1 V c 1 t) (iblk1 V c 2 t)
        (iblk1 V c 4 t) (iblk1 V c 5 t) j
    = Cert.Spec.out4 (V c main_arg0) (V c main_v3_0) (V c main_v3_1) (V c main_arg3) (V c main_arg6)
        (fun c' => V c main_v2 (ix2 0 c')) (fun e => V c main_v0 (ix2 0 e)) (fun e => V c main_v1 (ix2 0 e)) (((cfg1.win 8).blk t).view.emb j)
  refine (block_value (iblk1 V c 0 t) (iblk1 V c 1 t) (iblk1 V c 2 t) (iblk1 V c 3 t) (iblk1 V c 4 t) (iblk1 V c 5 t) (iblk1 V c 6 t) (iblk1 V c 7 t) j).trans ?_
  obtain ⟨e00, e01, e02, e10, e11, e12, e20, e21, e22, e30, e31, e40, e41, e50, e51, e60, e61, e70, e71, b0, e81, b2, e83⟩ := idx_facts t
  have hj0 : (j 0).val < 1 := (j 0).isLt
  have hj1 : (j 1).val < 16 := (j 1).isLt
  have hj2 : (j 2).val < 32 := (j 2).isLt
  have hj3 : (j 3).val < 1024 := (j 3).isLt
  have hX0 : ∀ (c' k : Fin 1024), iblk1 V c 0 t (ix3 0 (tokIn (j 2) c') k)
      = V c main_arg0 (ix3 ((((cfg1.win 8).blk t).view.emb j) 0) (Cert.Spec.tokOf ((((cfg1.win 8).blk t).view.emb j) 2) c') k) := by
    intro c' k
    show V c main_arg0 (((cfg1.win 0).blk t).view.emb (ix3 0 (tokIn (j 2) c') k)) = _
    refine congrArg (V c main_arg0) (funext fun a => Fin.ext ?_)
    match a with
    | ⟨0, _⟩ => show win1_0.index t (0 : Fin 3) * 1 + 1 * 0 = win1_8.index t (0 : Fin 4) * 1 + 1 * (j 0).val; omega
    | ⟨1, _⟩ => show win1_0.index t (1 : Fin 3) * 512 + 1 * ((j 2).val * 16 + c'.val / 64) = (win1_8.index t (2 : Fin 4) * 32 + 1 * (j 2).val) * 16 + c'.val / 64; omega
    | ⟨2, _⟩ => show win1_0.index t (2 : Fin 3) * 1024 + 1 * k.val = k.val; omega
  have hX1 : ∀ (c' cc : Fin 1024), iblk1 V c 1 t (ix3 0 (tokIn (j 2) c') cc)
      = V c main_v3_0 (ix3 (Cert.Spec.batchOf ((((cfg1.win 8).blk t).view.emb j) 0)) (Cert.Spec.tokOf ((((cfg1.win 8).blk t).view.emb j) 2) c') cc) := by
    intro c' cc
    show V c main_v3_0 (((cfg1.win 1).blk t).view.emb (ix3 0 (tokIn (j 2) c') cc)) = _
    refine congrArg (V c main_v3_0) (funext fun a => Fin.ext ?_)
    match a with
    | ⟨0, _⟩ => show win1_1.index t (0 : Fin 3) * 1 + 1 * 0 = (win1_8.index t (0 : Fin 4) * 1 + 1 * (j 0).val) % 4; omega
    | ⟨1, _⟩ => show win1_1.index t (1 : Fin 3) * 512 + 1 * ((j 2).val * 16 + c'.val / 64) = (win1_8.index t (2 : Fin 4) * 32 + 1 * (j 2).val) * 16 + c'.val / 64; omega
    | ⟨2, _⟩ => show win1_1.index t (2 : Fin 3) * 1024 + 1 * cc.val = cc.val; omega
  have hX2 : ∀ (c' cc : Fin 1024), iblk1 V c 2 t (ix3 0 (tokIn (j 2) c') cc)
      = V c main_v3_1 (ix3 (Cert.Spec.batchOf ((((cfg1.win 8).blk t).view.emb j) 0)) (Cert.Spec.tokOf ((((cfg1.win 8).blk t).view.emb j) 2) c') cc) := by
    intro c' cc
    show V c main_v3_1 (((cfg1.win 2).blk t).view.emb (ix3 0 (tokIn (j 2) c') cc)) = _
    refine congrArg (V c main_v3_1) (funext fun a => Fin.ext ?_)
    match a with
    | ⟨0, _⟩ => show win1_2.index t (0 : Fin 3) * 1 + 1 * 0 = (win1_8.index t (0 : Fin 4) * 1 + 1 * (j 0).val) % 4; omega
    | ⟨1, _⟩ => show win1_2.index t (1 : Fin 3) * 512 + 1 * ((j 2).val * 16 + c'.val / 64) = (win1_8.index t (2 : Fin 4) * 32 + 1 * (j 2).val) * 16 + c'.val / 64; omega
    | ⟨2, _⟩ => show win1_2.index t (2 : Fin 3) * 1024 + 1 * cc.val = cc.val; omega
  have hX3 : ∀ (a k : Fin 1024), iblk1 V c 3 t (ix2 a k) = V c main_arg3 (ix2 a k) := by
    intro a k
    show V c main_arg3 (((cfg1.win 3).blk t).view.emb (ix2 a k)) = _
    refine congrArg (V c main_arg3) (funext fun d => Fin.ext ?_)
    match d with
    | ⟨0, _⟩ => show win1_3.index t (0 : Fin 2) * 1024 + 1 * a.val = a.val; omega
    | ⟨1, _⟩ => show win1_3.index t (1 : Fin 2) * 1024 + 1 * k.val = k.val; omega
  have hX4 : ∀ (k : Fin 1024), iblk1 V c 4 t (ix2 (j 3) k) = V c main_arg6 (ix2 ((((cfg1.win 8).blk t).view.emb j) 3) k) := by
    intro k
    show V c main_arg6 (((cfg1.win 4).blk t).view.emb (ix2 (j 3) k)) = _
    refine congrArg (V c main_arg6) (funext fun d => Fin.ext ?_)
    match d with
    | ⟨0, _⟩ => show win1_4.index t (0 : Fin 2) * 1024 + 1 * (j 3).val = win1_8.index t (3 : Fin 4) * 1024 + 1 * (j 3).val; omega
    | ⟨1, _⟩ => show win1_4.index t (1 : Fin 2) * 1024 + 1 * k.val = k.val; omega
  have hX5 : iblk1 V c 5 t (ix2 0 (j 3)) = V c main_v2 (ix2 0 ((((cfg1.win 8).blk t).view.emb j) 3)) := by
    show V c main_v2 (((cfg1.win 5).blk t).view.emb (ix2 0 (j 3))) = _
    refine congrArg (V c main_v2) (funext fun d => Fin.ext ?_)
    match d with
    | ⟨0, _⟩ => show win1_5.index t (0 : Fin 2) * 1 + 1 * 0 = 0; omega
    | ⟨1, _⟩ => show win1_5.index t (1 : Fin 2) * 1024 + 1 * (j 3).val = win1_8.index t (3 : Fin 4) * 1024 + 1 * (j 3).val; omega
  have hX6 : ∀ (e : Fin 64), iblk1 V c 6 t (ix2 0 e) = V c main_v0 (ix2 0 e) := by
    intro e
    show V c main_v0 (((cfg1.win 6).blk t).view.emb (ix2 0 e)) = _
    refine congrArg (V c main_v0) (funext fun d => Fin.ext ?_)
    match d with
    | ⟨0, _⟩ => show win1_6.index t (0 : Fin 2) * 1 + 1 * 0 = 0; omega
    | ⟨1, _⟩ => show win1_6.index t (1 : Fin 2) * 64 + 1 * e.val = e.val; omega
  have hX7 : ∀ (e : Fin 64), iblk1 V c 7 t (ix2 0 e) = V c main_v1 (ix2 0 e) := by
    intro e
    show V c main_v1 (((cfg1.win 7).blk t).view.emb (ix2 0 e)) = _
    refine congrArg (V c main_v1) (funext fun d => Fin.ext ?_)
    match d with
    | ⟨0, _⟩ => show win1_7.index t (0 : Fin 2) * 1 + 1 * 0 = 0; omega
    | ⟨1, _⟩ => show win1_7.index t (1 : Fin 2) * 64 + 1 * e.val = e.val; omega
  have hI1 : (((cfg1.win 8).blk t).view.emb j) 1 = j 1 :=
    Fin.ext (by show win1_8.index t (1 : Fin 4) * 16 + 1 * (j 1).val = (j 1).val; omega)
  simp only [hX0, hX1, hX2, hX3, hX4, hX5, hX6, hX7]
  unfold Cert.Spec.out4 Cert.Spec.xTok Cert.Spec.qn Cert.Spec.proj
  rw [hI1]

/-- The output array after the region: the 64 blocks tile it, so it is `out4` everywhere. -/
theorem out_array (c : Dev nD) :
    (dat1 (F := Ideal) V c).arrAt 8 cfg1.N
      = Cert.Spec.out4 (V c main_arg0) (V c main_v3_0) (V c main_v3_1) (V c main_arg3) (V c main_arg6)
          (fun c' => V c main_v2 (ix2 0 c')) (fun e => V c main_v0 (ix2 0 e)) (fun e => V c main_v1 (ix2 0 e)) :=
  (dat1 (F := Ideal) V c).arrAt_eq_of_cover 8 _ (fun t _ => flushed_eq V c t) Cert.KernelIdeal.Region1Cover.cover

end Cert.KernelIdeal.Region1

end
-- ==== Proof.RefValue.lean ====
/-
  The reference program computes the specification.

  Each operation of the reference is read at explicit coordinates, from the inputs upward:
  the four-fold tiling of k and v (query batch `b` reads key / value batch `b % 4`), the three input
  projections, the normalization of every head of the projected q and k, the scores of one token's
  heads against each other, their softmax, the mix of the value heads, the re-laying of the attention
  result as rows of 1024, and the output projection with its bias. The last stage is `Cert.Spec.G`.
-/
import proofs.«122151_j90907277787786_2_alg».proof.Proof.Spec
import proofs.«122151_j90907277787786_2_alg».proof.Proof.Gen.ReferenceIdeal.Read
import Idealize.ShloMosaic.Lib.ValueIdx
import Idealize.ShloMosaic.Lib.ValueIdxRank6
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Spec

/-! ## The tiled keys and values -/

/-- Reshaping [4, 2048, 1024] to [1, 4, 1, 2048, 1, 1024], repeating it four times along the first axis and
    reshaping to [16, 2048, 1024] puts batch `b % 4` of the operand at batch `b`: position
    `(b, n, k)` of the result is position `(b / 4, b % 4, 0, n, 0, k)` of the repeated array. -/
theorem tile_apply (x : A3 4 2048 1024) (b : Fin 16) (n : Fin 2048) (k : Fin 1024) :
    shapeCast S16x2048x1024
        (broadcastInDim S4x4x1x2048x1x1024 ![0, 1, 2, 3, 4, 5] bcast_S1x4x1x2048x1x1024_S4x4x1x2048x1x1024_0_1_2_3_4_5
          (shapeCast S1x4x1x2048x1x1024 x shapeCasts_S4x2048x1024_S1x4x1x2048x1x1024))
        shapeCasts_S4x4x1x2048x1x1024_S16x2048x1024 (ix3 b n k)
      = x (ix3 (batchOf b) n k) := by
  have hb := b.isLt
  have hn := n.isLt
  have hk := k.isLt
  -- the position in the repeated array
  have e1 : (S4x4x1x2048x1x1024.rowMajor
        (ix6 (⟨b.val / 4, by omega⟩ : Fin 4) (batchOf b) (0 : Fin 1) n (0 : Fin 1) k)).val
      = (S16x2048x1024.rowMajor (ix3 b n k)).val := by
    rw [Shape.rowMajor_val_six, Shape.rowMajor_val_three]
    show (((((b.val / 4) * 4 + b.val % 4) * 1 + 0) * 2048 + n.val) * 1 + 0) * 1024 + k.val
      = (b.val * 2048 + n.val) * 1024 + k.val
    omega
  -- the first reshape only inserts unit axes
  have e0 : (S4x2048x1024.rowMajor (ix3 (batchOf b) n k)).val
      = (S1x4x1x2048x1x1024.rowMajor
          (ix6 (0 : Fin 1) (batchOf b) (0 : Fin 1) n (0 : Fin 1) k)).val := by
    rw [Shape.rowMajor_val_six, Shape.rowMajor_val_three]
    show ((b.val % 4) * 2048 + n.val) * 1024 + k.val
      = ((((0 * 4 + b.val % 4) * 1 + 0) * 2048 + n.val) * 1 + 0) * 1024 + k.val
    omega
  rw [shapeCast_apply _ shapeCasts_S4x4x1x2048x1x1024_S16x2048x1024 (ix3 b n k) _ e1]
  -- the repetition forgets the first coordinate
  rw [broadcastInDim_apply _ bcast_S1x4x1x2048x1x1024_S4x4x1x2048x1x1024_0_1_2_3_4_5 _ _
    (ix6 (0 : Fin 1) (batchOf b) (0 : Fin 1) n (0 : Fin 1) k)
    (fun a => match a with
      | ⟨0, _⟩ => by show 0 = if (1 : Nat) = 1 then 0 else b.val / 4; rw [if_pos rfl]
      | ⟨1, _⟩ => by show b.val % 4 = if (4 : Nat) = 1 then 0 else b.val % 4; rw [if_neg (by decide)]
      | ⟨2, _⟩ => by show 0 = if (1 : Nat) = 1 then 0 else 0; rw [if_pos rfl]
      | ⟨3, _⟩ => by show n.val = if (2048 : Nat) = 1 then 0 else n.val; rw [if_neg (by decide)]
      | ⟨4, _⟩ => by show 0 = if (1 : Nat) = 1 then 0 else 0; rw [if_pos rfl]
      | ⟨5, _⟩ => by show k.val = if (1024 : Nat) = 1 then 0 else k.val; rw [if_neg (by decide)])]
  exact shapeCast_apply _ shapeCasts_S4x2048x1024_S1x4x1x2048x1x1024 _ (ix3 (batchOf b) n k) e0

/-- The tiled keys: batch `b` of the tiled array is batch `b % 4` of k. -/
theorem k_tiled (x1 : A3 4 2048 1024) (b : Fin 16) (n : Fin 2048) (k : Fin 1024) :
    val_main_v2 (F := Ideal) x1 (ix3 b n k) = x1 (ix3 (batchOf b) n k) :=
  tile_apply x1 b n k

/-- The tiled values: batch `b` of the tiled array is batch `b % 4` of v. -/
theorem v_tiled (x2 : A3 4 2048 1024) (b : Fin 16) (n : Fin 2048) (k : Fin 1024) :
    val_main_v5 (F := Ideal) x2 (ix3 b n k) = x2 (ix3 (batchOf b) n k) :=
  tile_apply x2 b n k

/-! ## The three projections -/

/-- The query projection: column `c` of token `n` of batch `b` is the row of q against row `c` of the weight. -/
theorem q_proj (x0 : A3 16 2048 1024) (x3 : A2 1024 1024) (b : Fin 16) (n : Fin 2048) (c : Fin 1024) :
    val_main_v6 (F := Ideal) x0 x3 (ix3 b n c) = proj x0 x3 b n c := by
  rw [val_main_v6_apply]
  unfold Cert.Spec.proj
  refine Finset.sum_congr rfl fun k _ => ?_
  have el : lidx_main_v6 (ix3 b n c) k = ix3 b n k :=
    funext fun a => Fin.ext (by match a with | ⟨0, _⟩ => rfl | ⟨1, _⟩ => rfl | ⟨2, _⟩ => rfl)
  have er : ridx_main_v6 (ix3 b n c) k = ix2 c k :=
    funext fun a => Fin.ext (by match a with | ⟨0, _⟩ => rfl | ⟨1, _⟩ => rfl)
  rw [el, er]

/-- The key projection of the tiled keys: batch `b` projects batch `b % 4` of k. -/
theorem k_proj (x1 : A3 4 2048 1024) (x4 : A2 1024 1024) (b : Fin 16) (n : Fin 2048) (c : Fin 1024) :
    val_main_v8 (F := Ideal) x1 x4 (ix3 b n c) = proj x1 x4 (batchOf b) n c := by
  rw [val_main_v8_apply]
  unfold Cert.Spec.proj
  refine Finset.sum_congr rfl fun k _ => ?_
  have el : lidx_main_v8 (ix3 b n c) k = ix3 b n k :=
    funext fun a => Fin.ext (by match a with | ⟨0, _⟩ => rfl | ⟨1, _⟩ => rfl | ⟨2, _⟩ => rfl)
  have er : ridx_main_v8 (ix3 b n c) k = ix2 c k :=
    funext fun a => Fin.ext (by match a with | ⟨0, _⟩ => rfl | ⟨1, _⟩ => rfl)
  rw [el, er, k_tiled]

/-- The value projection of the tiled values: batch `b` projects batch `b % 4` of v. -/
theorem v_proj (x2 : A3 4 2048 1024) (x5 : A2 1024 1024) (b : Fin 16) (n : Fin 2048) (c : Fin 1024) :
    val_main_v10 (F := Ideal) x2 x5 (ix3 b n c) = proj x2 x5 (batchOf b) n c := by
  rw [val_main_v10_apply]
  unfold Cert.Spec.proj
  refine Finset.sum_congr rfl fun k _ => ?_
  have el : lidx_main_v10 (ix3 b n c) k = ix3 b n k :=
    funext fun a => Fin.ext (by match a with | ⟨0, _⟩ => rfl | ⟨1, _⟩ => rfl | ⟨2, _⟩ => rfl)
  have er : ridx_main_v10 (ix3 b n c) k = ix2 c k :=
    funext fun a => Fin.ext (by match a with | ⟨0, _⟩ => rfl | ⟨1, _⟩ => rfl)
  rw [el, er, v_tiled]

/-- Splitting a row of 1024 into 16 heads of 64 lanes: position `(b, n, h, d)` of the split array is
    position `(b, n, h * 64 + d)` of the row array. The three reshapes to [16, 2048, 16, 64] read their
    operand there. -/
theorem split_idx (b : Fin 16) (n : Fin 2048) (h : Fin 16) (d : Fin 64) :
    idx_main_v7 (ix4 b n h d) = ix3 b n (col h d) := by
  have hb := b.isLt
  have hn := n.isLt
  have hh := h.isLt
  have hd := d.isLt
  refine funext fun a => Fin.ext ?_
  match a with
  | ⟨0, _⟩ =>
    show (((b.val * 2048 + n.val) * 16 + h.val) * 64 + d.val) / 2097152 = b.val
    omega
  | ⟨1, _⟩ =>
    show (((b.val * 2048 + n.val) * 16 + h.val) * 64 + d.val) / 1024 % 2048 = n.val
    omega
  | ⟨2, _⟩ =>
    show (((b.val * 2048 + n.val) * 16 + h.val) * 64 + d.val) % 1024 = h.val * 64 + d.val
    omega

/-- Head `h`, lane `d` of the projected query. -/
theorem q_head (x0 : A3 16 2048 1024) (x3 : A2 1024 1024) (b : Fin 16) (n : Fin 2048) (h : Fin 16) (d : Fin 64) :
    val_main_v7 (F := Ideal) x0 x3 (ix4 b n h d) = proj x0 x3 b n (col h d) := by
  rw [val_main_v7_apply, split_idx, q_proj]

/-- Head `h`, lane `d` of the projected key. -/
theorem k_head (x1 : A3 4 2048 1024) (x4 : A2 1024 1024) (b : Fin 16) (n : Fin 2048) (h : Fin 16) (d : Fin 64) :
    val_main_v9 (F := Ideal) x1 x4 (ix4 b n h d) = proj x1 x4 (batchOf b) n (col h d) := by
  rw [val_main_v9_apply, show idx_main_v9 (ix4 b n h d) = ix3 b n (col h d) from split_idx b n h d, k_proj]

/-- Head `h`, lane `d` of the projected value. -/
theorem v_head (x2 : A3 4 2048 1024) (x5 : A2 1024 1024) (b : Fin 16) (n : Fin 2048) (h : Fin 16) (d : Fin 64) :
    val_main_v11 (F := Ideal) x2 x5 (ix4 b n h d) = proj x2 x5 (batchOf b) n (col h d) := by
  rw [val_main_v11_apply, show idx_main_v11 (ix4 b n h d) = ix3 b n (col h d) from split_idx b n h d, v_proj]

/-! ## The normalization of the query heads -/

section Query

variable (x0 : A3 16 2048 1024) (x3 : A2 1024 1024) (x8 x9 : A1 64)

/-- The mean of head `h` of the projected query: the sum of its 64 lanes (from zero) divided by 64. -/
theorem q_mean (b : Fin 16) (n : Fin 2048) (h : Fin 16) (z : Fin 1) :
    val_main_v15 (F := Ideal) x0 x3 (ix4 b n h z) = mean (fun e => proj x0 x3 b n (col h e)) := by
  rw [val_main_v15_apply, val_main_v13_apply, val_main_v12_apply, val_main_v14_apply, val_main_cst_apply, val_main_cst_0_apply]
  show Ideal.div (Ideal.ofBits .f32 0x00000000#32
      + ∑ k : Fin 64, val_main_v7 (F := Ideal) x0 x3 (idx_main_v12 (idx_main_v13 (ix4 b n h z)) k))
    (Ideal.ofBits .f32 0x42800000#32) = _
  rw [Ideal.ofBits_zero_f32, zero_add]
  unfold Cert.Spec.mean Cert.Spec.w64
  refine congrArg (fun s => Ideal.div s _) (Finset.sum_congr rfl fun k _ => ?_)
  rw [show idx_main_v12 (idx_main_v13 (ix4 b n h z)) k = ix4 b n h k from
    funext fun a => Fin.ext (by match a with | ⟨0, _⟩ => rfl | ⟨1, _⟩ => rfl | ⟨2, _⟩ => rfl | ⟨3, _⟩ => rfl), q_head]

/-- A lane of the projected query less its head's mean (the copy that is squared). -/
theorem q_dev (b : Fin 16) (n : Fin 2048) (h : Fin 16) (d : Fin 64) :
    val_main_v17 (F := Ideal) x0 x3 (ix4 b n h d)
      = proj x0 x3 b n (col h d) - mean (fun e => proj x0 x3 b n (col h e)) := by
  rw [val_main_v17_apply, val_main_v16_apply, q_head,
    show idx_main_v16 (ix4 b n h d) = ix4 b n h (0 : Fin 1) from
      funext fun a => Fin.ext (by match a with | ⟨0, _⟩ => rfl | ⟨1, _⟩ => rfl | ⟨2, _⟩ => rfl | ⟨3, _⟩ => rfl), q_mean]
  rfl

/-- The biased variance of head `h` of the projected query: the sum of the squared deviations (from zero) divided by 64. -/
theorem q_var (b : Fin 16) (n : Fin 2048) (h : Fin 16) (z : Fin 1) :
    val_main_v22 (F := Ideal) x0 x3 (ix4 b n h z) = var (fun e => proj x0 x3 b n (col h e)) := by
  rw [val_main_v22_apply, val_main_v20_apply, val_main_v19_apply, val_main_v21_apply, val_main_cst_1_apply, val_main_cst_2_apply]
  show Ideal.div (Ideal.ofBits .f32 0x00000000#32
      + ∑ k : Fin 64, val_main_v18 (F := Ideal) x0 x3 (idx_main_v19 (idx_main_v20 (ix4 b n h z)) k))
    (Ideal.ofBits .f32 0x42800000#32) = _
  rw [Ideal.ofBits_zero_f32, zero_add]
  unfold Cert.Spec.var Cert.Spec.w64
  refine congrArg (fun s => Ideal.div s _) (Finset.sum_congr rfl fun k _ => ?_)
  rw [show idx_main_v19 (idx_main_v20 (ix4 b n h z)) k = ix4 b n h k from
    funext fun a => Fin.ext (by match a with | ⟨0, _⟩ => rfl | ⟨1, _⟩ => rfl | ⟨2, _⟩ => rfl | ⟨3, _⟩ => rfl), val_main_v18_apply, q_dev]
  rfl

/-- The normalized head: the deviation times the reciprocal root of the variance plus epsilon, scaled and shifted. -/
theorem q_ln (b : Fin 16) (n : Fin 2048) (h : Fin 16) (d : Fin 64) :
    val_main_v35 (F := Ideal) x0 x3 x8 x9 (ix4 b n h d)
      = ln (fun e => proj x0 x3 b n (col h e)) (fun e => x8 (ix1 e)) (fun e => x9 (ix1 e)) d := by
  rw [val_main_v35_apply, val_main_v32_apply, val_main_v29_apply, val_main_v24_apply, val_main_v23_apply, q_head,
    val_main_v28_apply, val_main_v27_apply, val_main_v26_apply, val_main_v25_apply, val_main_cst_3_apply,
    val_main_v31_apply, val_main_v30_apply, val_main_v34_apply, val_main_v33_apply,
    show idx_main_v23 (ix4 b n h d) = ix4 b n h (0 : Fin 1) from
      funext fun a => Fin.ext (by match a with | ⟨0, _⟩ => rfl | ⟨1, _⟩ => rfl | ⟨2, _⟩ => rfl | ⟨3, _⟩ => rfl),
    show idx_main_v28 (ix4 b n h d) = ix4 b n h (0 : Fin 1) from
      funext fun a => Fin.ext (by match a with | ⟨0, _⟩ => rfl | ⟨1, _⟩ => rfl | ⟨2, _⟩ => rfl | ⟨3, _⟩ => rfl),
    q_mean, q_var,
    show idx_main_v30 (idx_main_v31 (ix4 b n h d)) = ix1 d from
      funext fun a => Fin.ext (by match a with | ⟨0, _⟩ => rfl),
    show idx_main_v33 (idx_main_v34 (ix4 b n h d)) = ix1 d from
      funext fun a => Fin.ext (by match a with | ⟨0, _⟩ => rfl)]
  rfl

/-- The query heads that meet the keys: normalized, then multiplied by 1/8. -/
theorem q_qn (b : Fin 16) (n : Fin 2048) (h : Fin 16) (d : Fin 64) :
    val_main_v37 (F := Ideal) x0 x3 x8 x9 (ix4 b n h d)
      = qn x0 x3 (fun e => x8 (ix1 e)) (fun e => x9 (ix1 e)) b n h d := by
  rw [val_main_v37_apply, q_ln, val_main_v36_apply, val_main_cst_4_apply]
  rfl

end Query

/-! ## The normalization of the key heads -/

section Key

variable (x1 : A3 4 2048 1024) (x4 : A2 1024 1024) (x8 x9 : A1 64)

/-- The mean of head `h` of the projected key: the sum of its 64 lanes (from zero) divided by 64. -/
theorem k_mean (b : Fin 16) (n : Fin 2048) (h : Fin 16) (z : Fin 1) :
    val_main_v41 (F := Ideal) x1 x4 (ix4 b n h z) = mean (fun e => proj x1 x4 (batchOf b) n (col h e)) := by
  rw [val_main_v41_apply, val_main_v39_apply, val_main_v38_apply, val_main_v40_apply, val_main_cst_5_apply, val_main_cst_6_apply]
  show Ideal.div (Ideal.ofBits .f32 0x00000000#32
      + ∑ k : Fin 64, val_main_v9 (F := Ideal) x1 x4 (idx_main_v38 (idx_main_v39 (ix4 b n h z)) k))
    (Ideal.ofBits .f32 0x42800000#32) = _
  rw [Ideal.ofBits_zero_f32, zero_add]
  unfold Cert.Spec.mean Cert.Spec.w64
  refine congrArg (fun s => Ideal.div s _) (Finset.sum_congr rfl fun k _ => ?_)
  rw [show idx_main_v38 (idx_main_v39 (ix4 b n h z)) k = ix4 b n h k from
    funext fun a => Fin.ext (by match a with | ⟨0, _⟩ => rfl | ⟨1, _⟩ => rfl | ⟨2, _⟩ => rfl | ⟨3, _⟩ => rfl), k_head]

/-- A lane of the projected key less its head's mean (the copy that is squared). -/
theorem k_dev (b : Fin 16) (n : Fin 2048) (h : Fin 16) (d : Fin 64) :
    val_main_v43 (F := Ideal) x1 x4 (ix4 b n h d)
      = proj x1 x4 (batchOf b) n (col h d) - mean (fun e => proj x1 x4 (batchOf b) n (col h e)) := by
  rw [val_main_v43_apply, val_main_v42_apply, k_head,
    show idx_main_v42 (ix4 b n h d) = ix4 b n h (0 : Fin 1) from
      funext fun a => Fin.ext (by match a with | ⟨0, _⟩ => rfl | ⟨1, _⟩ => rfl | ⟨2, _⟩ => rfl | ⟨3, _⟩ => rfl), k_mean]
  rfl

/-- The biased variance of head `h` of the projected key: the sum of the squared deviations (from zero) divided by 64. -/
theorem k_var (b : Fin 16) (n : Fin 2048) (h : Fin 16) (z : Fin 1) :
    val_main_v48 (F := Ideal) x1 x4 (ix4 b n h z) = var (fun e => proj x1 x4 (batchOf b) n (col h e)) := by
  rw [val_main_v48_apply, val_main_v46_apply, val_main_v45_apply, val_main_v47_apply, val_main_cst_7_apply, val_main_cst_8_apply]
  show Ideal.div (Ideal.ofBits .f32 0x00000000#32
      + ∑ k : Fin 64, val_main_v44 (F := Ideal) x1 x4 (idx_main_v45 (idx_main_v46 (ix4 b n h z)) k))
    (Ideal.ofBits .f32 0x42800000#32) = _
  rw [Ideal.ofBits_zero_f32, zero_add]
  unfold Cert.Spec.var Cert.Spec.w64
  refine congrArg (fun s => Ideal.div s _) (Finset.sum_congr rfl fun k _ => ?_)
  rw [show idx_main_v45 (idx_main_v46 (ix4 b n h z)) k = ix4 b n h k from
    funext fun a => Fin.ext (by match a with | ⟨0, _⟩ => rfl | ⟨1, _⟩ => rfl | ⟨2, _⟩ => rfl | ⟨3, _⟩ => rfl), val_main_v44_apply, k_dev]
  rfl

/-- The normalized head: the deviation times the reciprocal root of the variance plus epsilon, scaled and shifted. -/
theorem k_ln (b : Fin 16) (n : Fin 2048) (h : Fin 16) (d : Fin 64) :
    val_main_v61 (F := Ideal) x1 x4 x8 x9 (ix4 b n h d)
      = ln (fun e => proj x1 x4 (batchOf b) n (col h e)) (fun e => x8 (ix1 e)) (fun e => x9 (ix1 e)) d := by
  rw [val_main_v61_apply, val_main_v58_apply, val_main_v55_apply, val_main_v50_apply, val_main_v49_apply, k_head,
    val_main_v54_apply, val_main_v53_apply, val_main_v52_apply, val_main_v51_apply, val_main_cst_9_apply,
    val_main_v57_apply, val_main_v56_apply, val_main_v60_apply, val_main_v59_apply,
    show idx_main_v49 (ix4 b n h d) = ix4 b n h (0 : Fin 1) from
      funext fun a => Fin.ext (by match a with | ⟨0, _⟩ => rfl | ⟨1, _⟩ => rfl | ⟨2, _⟩ => rfl | ⟨3, _⟩ => rfl),
    show idx_main_v54 (ix4 b n h d) = ix4 b n h (0 : Fin 1) from
      funext fun a => Fin.ext (by match a with | ⟨0, _⟩ => rfl | ⟨1, _⟩ => rfl | ⟨2, _⟩ => rfl | ⟨3, _⟩ => rfl),
    k_mean, k_var,
    show idx_main_v56 (idx_main_v57 (ix4 b n h d)) = ix1 d from
      funext fun a => Fin.ext (by match a with | ⟨0, _⟩ => rfl),
    show idx_main_v59 (idx_main_v60 (ix4 b n h d)) = ix1 d from
      funext fun a => Fin.ext (by match a with | ⟨0, _⟩ => rfl)]
  rfl

/-- The head of a head's column is that head. -/
theorem headOf_col (h : Fin 16) (d : Fin 64) : headOf (col h d) = h := by
  have hh := h.isLt
  have hd := d.isLt
  refine Fin.ext ?_
  show (h.val * 64 + d.val) / 64 = h.val
  omega

/-- The lane of a head's column is that lane. -/
theorem laneOf_col (h : Fin 16) (d : Fin 64) : laneOf (col h d) = d := by
  have hh := h.isLt
  have hd := d.isLt
  refine Fin.ext ?_
  show (h.val * 64 + d.val) % 64 = d.val
  omega

/-- The normalized key heads of query batch `b` are the normalized projected keys of batch `b % 4`. -/
theorem k_kp (b : Fin 16) (n : Fin 2048) (h : Fin 16) (d : Fin 64) :
    val_main_v61 (F := Ideal) x1 x4 x8 x9 (ix4 b n h d)
      = kpArr x1 x4 (fun e => x8 (ix1 e)) (fun e => x9 (ix1 e)) (ix3 (batchOf b) n (col h d)) := by
  rw [k_ln]
  show _ = ln (fun e => proj x1 x4 (batchOf b) n (col (headOf (col h d)) e)) (fun e => x8 (ix1 e))
    (fun e => x9 (ix1 e)) (laneOf (col h d))
  rw [headOf_col, laneOf_col]

end Key

/-- The value heads of query batch `b` are the projected values of batch `b % 4`. -/
theorem v_vp (x2 : A3 4 2048 1024) (x5 : A2 1024 1024) (b : Fin 16) (n : Fin 2048) (h : Fin 16) (d : Fin 64) :
    val_main_v11 (F := Ideal) x2 x5 (ix4 b n h d) = vpArr x2 x5 (ix3 (batchOf b) n (col h d)) :=
  v_head x2 x5 b n h d

/-! ## One token's attention across heads -/

/-- The scaled normalized query heads of token `n` of batch `b`. -/
abbrev qRow (x0 : A3 16 2048 1024) (x3 : A2 1024 1024) (x8 x9 : A1 64) (b : Fin 16) (n : Fin 2048) :
    Fin 16 → Fin 64 → EReal :=
  fun h' d' => qn x0 x3 (fun e => x8 (ix1 e)) (fun e => x9 (ix1 e)) b n h' d'

/-- The normalized key heads that token meets: those of the same token of batch `b % 4`. -/
abbrev kRow (x1 : A3 4 2048 1024) (x4 : A2 1024 1024) (x8 x9 : A1 64) (b : Fin 16) (n : Fin 2048) :
    Fin 16 → Fin 64 → EReal :=
  fun g' d' => kpArr x1 x4 (fun e => x8 (ix1 e)) (fun e => x9 (ix1 e)) (ix3 (batchOf b) n (col g' d'))

/-- The value heads that token mixes: those of the same token of batch `b % 4`. -/
abbrev vRow (x2 : A3 4 2048 1024) (x5 : A2 1024 1024) (b : Fin 16) (n : Fin 2048) : Fin 16 → Fin 64 → EReal :=
  fun g' d' => vpArr x2 x5 (ix3 (batchOf b) n (col g' d'))

section Attention

variable (x0 : A3 16 2048 1024) (x1 x2 : A3 4 2048 1024) (x3 x4 x5 : A2 1024 1024) (x8 x9 : A1 64)

/-- The score of query head `h` against key head `g`: the sum over the 64 lanes of their products. -/
theorem s_score (b : Fin 16) (n : Fin 2048) (h g : Fin 16) :
    val_main_v62 (F := Ideal) x0 x1 x3 x4 x8 x9 (ix4 b n h g)
      = score (qRow x0 x3 x8 x9 b n) (kRow x1 x4 x8 x9 b n) h g := by
  rw [val_main_v62_apply]
  unfold Cert.Spec.score
  refine Finset.sum_congr rfl fun k _ => ?_
  rw [show lidx_main_v62 (ix4 b n h g) k = ix4 b n h k from
      funext fun a => Fin.ext (by match a with | ⟨0, _⟩ => rfl | ⟨1, _⟩ => rfl | ⟨2, _⟩ => rfl | ⟨3, _⟩ => rfl),
    show ridx_main_v62 (ix4 b n h g) k = ix4 b n g k from
      funext fun a => Fin.ext (by match a with | ⟨0, _⟩ => rfl | ⟨1, _⟩ => rfl | ⟨2, _⟩ => rfl | ⟨3, _⟩ => rfl), q_qn, k_kp]

/-- The row maximum: the maximum of head `h`'s 16 scores, started at minus infinity (and taken with minus
    infinity once more, which changes nothing). -/
theorem s_max (b : Fin 16) (n : Fin 2048) (h : Fin 16) :
    val_main_v65 (F := Ideal) x0 x1 x3 x4 x8 x9 (ix3 b n h)
      = rowMax (score (qRow x0 x3 x8 x9 b n) (kRow x1 x4 x8 x9 b n) h) := by
  have hr : S16x2048x16x16.Reduces [3] S16x2048x16 := by decide
  rw [val_main_v65_apply, val_main_v64_apply, val_main_cst_11_apply]
  unfold val_main_v63
  rw [Host.reduce_eq_fold_single (FloatOps.maximumf (F := Ideal) (φ := .f32)) _ _
    reducesTo_S16x2048x16x16_S16x2048x16_d3 hr h_S_ (ix3 b n h), val_main_cst_10_apply]
  have el : (fun g : Fin 16 => val_main_v62 (F := Ideal) x0 x1 x3 x4 x8 x9 (hr.lift (ix3 b n h) g))
      = score (qRow x0 x3 x8 x9 b n) (kRow x1 x4 x8 x9 b n) h := funext fun g => by
    rw [show hr.lift (ix3 b n h) g = ix4 b n h g from
      funext fun a => Fin.ext (by match a with | ⟨0, _⟩ => rfl | ⟨1, _⟩ => rfl | ⟨2, _⟩ => rfl | ⟨3, _⟩ => rfl), s_score]
  show max wNegInf ((Finset.univ : Finset (Fin 16)).fold max wNegInf
    (fun g : Fin 16 => val_main_v62 (F := Ideal) x0 x1 x3 x4 x8 x9 (hr.lift (ix3 b n h) g))) = _
  rw [el]
  exact max_fold_self _ _ _

/-- The exponential of a score less its row's maximum. -/
theorem s_pexp (b : Fin 16) (n : Fin 2048) (h g : Fin 16) :
    val_main_v69 (F := Ideal) x0 x1 x3 x4 x8 x9 (ix4 b n h g) = pexp (score (qRow x0 x3 x8 x9 b n) (kRow x1 x4 x8 x9 b n) h) g := by
  rw [val_main_v69_apply, val_main_v68_apply, val_main_v67_apply, val_main_v66_apply, s_score,
    show idx_main_v66 (idx_main_v67 (ix4 b n h g)) = ix3 b n h from
      funext fun a => Fin.ext (by match a with | ⟨0, _⟩ => rfl | ⟨1, _⟩ => rfl | ⟨2, _⟩ => rfl), s_max]
  rfl

/-- The softmax weight: the exponential divided by the sum (from zero) of the row's 16 exponentials. -/
theorem s_softmax (b : Fin 16) (n : Fin 2048) (h g : Fin 16) :
    val_main_v73 (F := Ideal) x0 x1 x3 x4 x8 x9 (ix4 b n h g) = softmax (score (qRow x0 x3 x8 x9 b n) (kRow x1 x4 x8 x9 b n) h) g := by
  rw [val_main_v73_apply, s_pexp, val_main_v72_apply, val_main_v71_apply, val_main_v70_apply, val_main_cst_12_apply]
  show Ideal.div _ (Ideal.ofBits .f32 0x00000000#32
    + ∑ k : Fin 16, val_main_v69 (F := Ideal) x0 x1 x3 x4 x8 x9
        (idx_main_v70 (idx_main_v71 (idx_main_v72 (ix4 b n h g))) k)) = _
  rw [Ideal.ofBits_zero_f32, zero_add]
  unfold Cert.Spec.softmax
  refine congrArg (Ideal.div _) (Finset.sum_congr rfl fun k _ => ?_)
  rw [show idx_main_v70 (idx_main_v71 (idx_main_v72 (ix4 b n h g))) k = ix4 b n h k from
    funext fun a => Fin.ext (by match a with | ⟨0, _⟩ => rfl | ⟨1, _⟩ => rfl | ⟨2, _⟩ => rfl | ⟨3, _⟩ => rfl), s_pexp]

/-- Head `h`, lane `d` of the attention result of a token: the softmax weights mix the 16 value heads. -/
theorem s_attn (b : Fin 16) (n : Fin 2048) (h : Fin 16) (d : Fin 64) :
    val_main_v74 (F := Ideal) x0 x1 x2 x3 x4 x5 x8 x9 (ix4 b n h d)
      = xTok x0 (kpArr x1 x4 (fun e => x8 (ix1 e)) (fun e => x9 (ix1 e))) (vpArr x2 x5) x3
          (fun e => x8 (ix1 e)) (fun e => x9 (ix1 e)) b n h d := by
  rw [val_main_v74_apply]
  show _ = ∑ g : Fin 16, softmax (score (qRow x0 x3 x8 x9 b n) (kRow x1 x4 x8 x9 b n) h) g * vRow x2 x5 b n g d
  refine Finset.sum_congr rfl fun k _ => ?_
  rw [show lidx_main_v74 (ix4 b n h d) k = ix4 b n h k from
      funext fun a => Fin.ext (by match a with | ⟨0, _⟩ => rfl | ⟨1, _⟩ => rfl | ⟨2, _⟩ => rfl | ⟨3, _⟩ => rfl),
    show ridx_main_v74 (ix4 b n h d) k = ix4 b n k d from
      funext fun a => Fin.ext (by match a with | ⟨0, _⟩ => rfl | ⟨1, _⟩ => rfl | ⟨2, _⟩ => rfl | ⟨3, _⟩ => rfl), s_softmax, v_vp]

/-! ## The re-laying, the output projection and the bias -/

/-- Transposing [b, n, h, d] to [b, h, n, d] and reading the result as rows of 1024: row `n'`, column `c'` is
    head `n' / 128`, token `(n' % 128) * 16 + c' / 64`, lane `c' % 64`. -/
theorem relay_idx (b : Fin 16) (n' : Fin 2048) (c' : Fin 1024) :
    idx_main_v75 (idx_main_v76 (ix3 b n' c')) = ix4 b (tokOf (rowSlot n') c') (rowHead n') (laneOf c') := by
  have hb := b.isLt
  have hn := n'.isLt
  have hc := c'.isLt
  refine funext fun a => Fin.ext ?_
  match a with
  | ⟨0, _⟩ =>
    show ((b.val * 2048 + n'.val) * 1024 + c'.val) / 2097152 = b.val
    omega
  | ⟨1, _⟩ =>
    show ((b.val * 2048 + n'.val) * 1024 + c'.val) / 64 % 2048 = (n'.val % 128) * 16 + c'.val / 64
    omega
  | ⟨2, _⟩ =>
    show ((b.val * 2048 + n'.val) * 1024 + c'.val) / 131072 % 16 = n'.val / 128
    omega
  | ⟨3, _⟩ =>
    show ((b.val * 2048 + n'.val) * 1024 + c'.val) % 64 = c'.val % 64
    omega

/-- The rows that enter the output projection. -/
theorem x_rows (b : Fin 16) (n' : Fin 2048) (c' : Fin 1024) :
    val_main_v76 (F := Ideal) x0 x1 x2 x3 x4 x5 x8 x9 (ix3 b n' c')
      = xTok x0 (kpArr x1 x4 (fun e => x8 (ix1 e)) (fun e => x9 (ix1 e))) (vpArr x2 x5) x3
          (fun e => x8 (ix1 e)) (fun e => x9 (ix1 e)) b (tokOf (rowSlot n') c') (rowHead n') (laneOf c') := by
  rw [val_main_v76_apply, val_main_v75_apply, relay_idx, s_attn]

variable (x6 : A2 1024 1024) (x7 : A1 1024)

/-- The result at batch `b`, row `n'`, column `c`: the row against row `c` of the output weight, plus the bias. -/
theorem ref_out (b : Fin 16) (n' : Fin 2048) (c : Fin 1024) :
    val_main_v80 (F := Ideal) x0 x1 x2 x3 x4 x5 x6 x7 x8 x9 (ix3 b n' c)
      = out4 x0 (kpArr x1 x4 (fun e => x8 (ix1 e)) (fun e => x9 (ix1 e))) (vpArr x2 x5) x3 x6 (fun e => x7 (ix1 e))
          (fun e => x8 (ix1 e)) (fun e => x9 (ix1 e)) (ix4 b (rowHead n') (rowSlot n') c) := by
  rw [val_main_v80_apply, val_main_v77_apply, val_main_v79_apply, val_main_v78_apply,
    show idx_main_v78 (idx_main_v79 (ix3 b n' c)) = ix1 c from
      funext fun a => Fin.ext (by match a with | ⟨0, _⟩ => rfl)]
  show (∑ k : Fin 1024, val_main_v76 (F := Ideal) x0 x1 x2 x3 x4 x5 x8 x9 (lidx_main_v77 (ix3 b n' c) k)
        * x6 (ridx_main_v77 (ix3 b n' c) k)) + x7 (ix1 c)
    = (∑ k : Fin 1024, xTok x0 (kpArr x1 x4 (fun e => x8 (ix1 e)) (fun e => x9 (ix1 e))) (vpArr x2 x5) x3
          (fun e => x8 (ix1 e)) (fun e => x9 (ix1 e)) b (tokOf (rowSlot n') k) (rowHead n') (laneOf k)
        * x6 (ix2 c k)) + x7 (ix1 c)
  refine congrArg (· + _) (Finset.sum_congr rfl fun k _ => ?_)
  rw [show lidx_main_v77 (ix3 b n' c) k = ix3 b n' k from
      funext fun a => Fin.ext (by match a with | ⟨0, _⟩ => rfl | ⟨1, _⟩ => rfl | ⟨2, _⟩ => rfl),
    show ridx_main_v77 (ix3 b n' c) k = ix2 c k from
      funext fun a => Fin.ext (by match a with | ⟨0, _⟩ => rfl | ⟨1, _⟩ => rfl), x_rows]

end Attention

/-- The reference computes the specification: its last stage, as a function of @main's ten arguments, is `G`. -/
theorem ref_is_G (x0 : A3 16 2048 1024) (x1 x2 : A3 4 2048 1024) (x3 x4 x5 x6 : A2 1024 1024) (x7 : A1 1024)
    (x8 x9 : A1 64) :
    val_main_v80 (F := Ideal) x0 x1 x2 x3 x4 x5 x6 x7 x8 x9 = G x0 x1 x2 x3 x4 x5 x6 x7 x8 x9 := by
  funext i
  obtain ⟨b, n', c, rfl⟩ : ∃ (b : Fin 16) (n' : Fin 2048) (c : Fin 1024), i = ix3 b n' c :=
    ⟨i 0, i 1, i 2, eq_ix3 i⟩
  exact ref_out x0 x1 x2 x3 x4 x5 x8 x9 x6 x7 b n' c

/-- The same statement over the program's own buffer-content types (which unfold to the specification's array types). -/
theorem ref_is_G_contents (x0 : (⟨S16x2048x1024, .f32⟩ : BufTy).Contents (Elt Ideal))
    (x1 x2 : (⟨S4x2048x1024, .f32⟩ : BufTy).Contents (Elt Ideal))
    (x3 x4 x5 x6 : (⟨S1024x1024, .f32⟩ : BufTy).Contents (Elt Ideal))
    (x7 : (⟨S1024, .f32⟩ : BufTy).Contents (Elt Ideal)) (x8 x9 : (⟨S64, .f32⟩ : BufTy).Contents (Elt Ideal)) :
    val_main_v80 (F := Ideal) x0 x1 x2 x3 x4 x5 x6 x7 x8 x9 = G x0 x1 x2 x3 x4 x5 x6 x7 x8 x9 :=
  ref_is_G x0 x1 x2 x3 x4 x5 x6 x7 x8 x9

end Cert.ReferenceIdeal.RefValue

end
-- ==== Proof.lean ====
/-
  The certificate's five claims.

  The kernel is a cross-attention layer in two pallas_calls — the key / value projections (with the per-head
  LayerNorm of the keys) over the 4 key batches, then, per 512-token tile of each of the 16 query batches, the query
  projection and LayerNorm, the per-token attention across the 16 heads, the re-laying of the result into rows of 1024
  and the output projection —, against a jnp reference that tiles k and v to 16 batches and does the same arithmetic on
  whole arrays. At the ideal reading both results are the one function `Cert.Spec.G` of the ten inputs:
    * the kernel's result buffer is read back through the boundaries of its run (KernelRun, KernelValue), each
      region's output array being one function of the arrays it finds on entry (Region0 over the payloads of PayProj;
      Region1 over PayProj and PayAttn, its 64 blocks tiling the output by Region1Cover);
    * the reference's result is read one operation at a time (RefValue).
  The frames are the generated ones; the idealization rewrote nothing, so the fourth claim is `True`.
-/
import proofs.«122151_j90907277787786_2_alg».proof.Defs
import proofs.«122151_j90907277787786_2_alg».proof.Proof.Gen.Kernel
import proofs.«122151_j90907277787786_2_alg».proof.Proof.Gen.Kernel.Skeleton
import proofs.«122151_j90907277787786_2_alg».proof.Proof.Gen.Kernel.Launch
import proofs.«122151_j90907277787786_2_alg».proof.Proof.Gen.Kernel.Points
import proofs.«122151_j90907277787786_2_alg».proof.Proof.Gen.Kernel.Frame
import proofs.«122151_j90907277787786_2_alg».proof.Proof.Gen.KernelIdeal
import proofs.«122151_j90907277787786_2_alg».proof.Proof.Gen.KernelIdeal.Skeleton
import proofs.«122151_j90907277787786_2_alg».proof.Proof.Gen.KernelIdeal.Launch
import proofs.«122151_j90907277787786_2_alg».proof.Proof.Gen.KernelIdeal.Points
import proofs.«122151_j90907277787786_2_alg».proof.Proof.Gen.KernelIdeal.Frame
import proofs.«122151_j90907277787786_2_alg».proof.Proof.Gen.ReferenceIdeal
import proofs.«122151_j90907277787786_2_alg».proof.Proof.Gen.Pre_finite_inputs
import proofs.«122151_j90907277787786_2_alg».proof.Proof.Gen.ReferenceIdeal.Run
import proofs.«122151_j90907277787786_2_alg».proof.Proof.Gen.ReferenceIdeal.Read
import proofs.«122151_j90907277787786_2_alg».proof.Proof.Spec
import proofs.«122151_j90907277787786_2_alg».proof.Proof.KernelRun
import proofs.«122151_j90907277787786_2_alg».proof.Proof.KernelValue
import proofs.«122151_j90907277787786_2_alg».proof.Proof.Region0
import proofs.«122151_j90907277787786_2_alg».proof.Proof.Region1
import proofs.«122151_j90907277787786_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments as launched: the generated frame of its two regions. -/
theorem frame_k [Cert.Kernel.Facts] [Cert.Pre_finite_inputs.Facts] : Cert.frame_Kernel := fun m ρ _ => Cert.Kernel.Gen.frame m ρ
/-- The same for the idealized kernel. -/
theorem frame_ki [Cert.KernelIdeal.Facts] [Cert.Pre_finite_inputs.Facts] : Cert.frame_KernelIdeal := fun m ρ _ => Cert.KernelIdeal.Gen.frame m ρ
/-- The reference has no kernel: its frame is its run with the result forgotten. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with the specification `G` of the launch arrays in their result buffer: the kernel
    by its run read back through its two regions, the reference by its run read one operation at a time; the
    arrays agree by hypothesis. No finiteness is used: the two sides are the same sums, products and quotients. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.ResultValue.result_of_arrays m ρ Cert.KernelIdeal.Region0.kp_array
        Cert.KernelIdeal.Region0.vp_array Cert.KernelIdeal.Region1.out_array c), (h c).2⟩)
      (Cert.KernelIdeal.RunValue.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v80_eq, Cert.ReferenceIdeal.RefValue.ref_is_G, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2]

/-- The five claims under the generated witnesses of the programs' stated side conditions. The idealization rewrote
    no operation, so the fourth claim is trivial. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
